-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.sign_bit.Statement Cert.KernelIdeal.S4000x1 .f32
  ∧ IdealRules.sign_bit.Statement Cert.KernelIdeal.S4000x1 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v31_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v31_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg6 : FVec F S32 .f32) (main_arg12 : FVec F S32x1 .f32) (main_arg13 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S32x1 .f32 := Host.absf main_arg12
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_cst_24 : FVec F S_ .f32 := constant S_ .f32 0x00000000#32
  let main_v64 : FVec F S32 .f32 := broadcastInDim S32 ![] bcast_S_S32 main_cst_24
  let main_v65 : IVec S32 1 := cmpf .oge main_arg6 main_v64
  let main_c_25 : IVec S_ 1 := constantI S_ 1 1#1
  let main_v66 : IVec S_ 1 := (fun x v => Host.reduce IntOp.andi x v reducesTo_S32_S_d0 h_S_) main_v65 main_c_25
  let main_v67 : IVec S_ 1 := andi main_v63 main_v66
  main_v67

def fn_part2 {F : FTy → Type} [FloatOps F] (main_arg6 : FVec F S32 .f32) (main_arg8 : FVec F S32 .f32) (main_arg9 : FVec F S32x32 .f32) (main_arg10 : FVec F S32 .f32) (main_arg11 : FVec F S32x1 .f32) (main_arg12 : FVec F S32x1 .f32) (main_arg13 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg9
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg11
  let main_cst_18 : FVec F S_ .f32 := constant S_ .f32 0x7F800000#32
  let main_v50 : FVec F S32x1 .f32 := broadcastInDim S32x1 ![] bcast_S_S32x1 main_cst_18
  fn_part3 (F := F) main_arg6 main_arg12 main_arg13 main_v48 main_v49 main_v50

def fn_part1 {F : FTy → Type} [FloatOps F] (main_arg5 : FVec F S32 .f32) (main_arg6 : FVec F S32 .f32) (main_arg7 : FVec F S32x32 .f32) (main_arg8 : FVec F S32 .f32) (main_arg9 : FVec F S32x32 .f32) (main_arg10 : FVec F S32 .f32) (main_arg11 : FVec F S32x1 .f32) (main_arg12 : FVec F S32x1 .f32) (main_arg13 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg6 main_arg8 main_arg9 main_arg10 main_arg11 main_arg12 main_arg13 main_v33

def fn {F : FTy → Type} [FloatOps F] (main_arg0 : FVec F S100000x3 .f32) (main_arg1 : IVec S2x3200000 32) (main_arg2 : FVec F S2x32 .f32) (main_arg3 : FVec F S32 .f32) (main_arg4 : FVec F S32 .f32) (main_arg5 : FVec F S32 .f32) (main_arg6 : FVec F S32 .f32) (main_arg7 : FVec F S32x32 .f32) (main_arg8 : FVec F S32 .f32) (main_arg9 : FVec F S32x32 .f32) (main_arg10 : FVec F S32 .f32) (main_arg11 : FVec F S32x1 .f32) (main_arg12 : FVec F S32x1 .f32) (main_arg13 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S2x32 .f32 := Host.absf main_arg2
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_v13 main_v16
-- ==== Kernel.lean ====
abbrev S100000x3 : Shape := ⟨2, ![100000, 3]⟩
abbrev S2x3200000 : Shape := ⟨2, ![2, 3200000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S1x32 : Shape := ⟨2, ![1, 32]⟩
abbrev S1x1 : Shape := ⟨2, ![1, 1]⟩
abbrev S3200000x32 : Shape := ⟨2, ![3200000, 32]⟩
abbrev S3200000x4 : Shape := ⟨2, ![3200000, 4]⟩
abbrev S4000x3 : Shape := ⟨2, ![4000, 3]⟩
abbrev S4000x32 : Shape := ⟨2, ![4000, 32]⟩
abbrev S4000x4 : Shape := ⟨2, ![4000, 4]⟩
abbrev S4000 : Shape := ⟨1, ![4000]⟩
abbrev S4000x1 : Shape := ⟨2, ![4000, 1]⟩
abbrev S4000x2 : Shape := ⟨2, ![4000, 2]⟩
abbrev S100000x4 : Shape := ⟨2, ![100000, 4]⟩
abbrev S100000x1 : Shape := ⟨2, ![100000, 1]⟩
abbrev S100000 : Shape := ⟨1, ![100000]⟩

abbrev nBuf : Space → Nat
  | .hbm => 69
  | .vmem => 17
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S2x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S32x1, .f32⟩
  | .hbm, ⟨12, _⟩ => ⟨S32x1, .f32⟩
  | .hbm, ⟨13, _⟩ => ⟨S1, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x3, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x3, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S32, .f32⟩
  | .hbm, ⟨40, _⟩ => ⟨S32, .f32⟩
  | .hbm, ⟨41, _⟩ => ⟨S1x32, .f32⟩
  | .hbm, ⟨42, _⟩ => ⟨S2x32, .f32⟩
  | .hbm, ⟨43, _⟩ => ⟨S2x32, .f32⟩
  | .hbm, ⟨44, _⟩ => ⟨S32, .f32⟩
  | .hbm, ⟨45, _⟩ => ⟨S32, .f32⟩
  | .hbm, ⟨46, _⟩ => ⟨S1x32, .f32⟩
  | .hbm, ⟨47, _⟩ => ⟨S1x32, .f32⟩
  | .hbm, ⟨48, _⟩ => ⟨S1x32, .f32⟩
  | .hbm, ⟨49, _⟩ => ⟨S1x1, .f32⟩
  | .hbm, ⟨50, _⟩ => ⟨S3200000x32, .f32⟩
  | .hbm, ⟨51, _⟩ => ⟨S3200000x4, .f32⟩
  | .hbm, ⟨52, _⟩ => ⟨S_, .f32⟩
  | .hbm, ⟨53, _⟩ => ⟨S100000x4, .f32⟩
  | .hbm, ⟨54, _⟩ => ⟨S3200000x1, .i32⟩
  | .hbm, ⟨55, _⟩ => ⟨S100000x4, .f32⟩
  | .hbm, ⟨56, _⟩ => ⟨S100000x3, .f32⟩
  | .hbm, ⟨57, _⟩ => ⟨S100000x1, .f32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x3, .f32⟩
  | .hbm, ⟨64, _⟩ => ⟨S100000x3, .f32⟩
  | .hbm, ⟨65, _⟩ => ⟨S_, .f32⟩
  | .hbm, ⟨66, _⟩ => ⟨S100000x3, .f32⟩
  | .hbm, ⟨67, _⟩ => ⟨S100000x3, .f32⟩
  | .hbm, ⟨68, _⟩ => ⟨S100000x3, .f32⟩
  | .local _ .vmem, ⟨0, _⟩ => ⟨S4000x3, .f32⟩
  | .local _ .vmem, ⟨1, _⟩ => ⟨S4000x3, .f32⟩
  | .local _ .vmem, ⟨2, _⟩ => ⟨S4000x3, .f32⟩
  | .local _ .vmem, ⟨3, _⟩ => ⟨S4000x3, .f32⟩
  | .local _ .vmem, ⟨4, _⟩ => ⟨S2x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S32x1, .f32⟩
  | .local _ .vmem, ⟨11, _⟩ => ⟨S32x1, .f32⟩
  | .local _ .vmem, ⟨12, _⟩ => ⟨S1x1, .f32⟩
  | .local _ .vmem, ⟨13, _⟩ => ⟨S4000x32, .f32⟩
  | .local _ .vmem, ⟨14, _⟩ => ⟨S4000x32, .f32⟩
  | .local _ .vmem, ⟨15, _⟩ => ⟨S4000x4, .f32⟩
  | .local _ .vmem, ⟨16, _⟩ => ⟨S4000x4, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31_0 : Ref sig .tc := ⟨.hbm, 50, rfl⟩
abbrev main_v31_1 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [BitOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4000x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S32 : S_.BroadcastsInDim S32 (![] : Fin 0 → Fin S32.rank)
  bcast_S32_S1x32_1 : S32.BroadcastsInDim S1x32 (![1] : Fin 1 → Fin S1x32.rank)
  bcast_S1x32_S2x32_0_1 : S1x32.BroadcastsInDim S2x32 (![0, 1] : Fin 2 → Fin S2x32.rank)
  shapeCasts_S32_S1x32 : S32.ShapeCasts S1x32
  shapeCasts_S1_S1x1 : S1.ShapeCasts S1x1
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  reduces_S4000x3_S4000 : S4000x3.Reduces [1] S4000
  shapeCasts_S4000_S4000x1 : S4000.ShapeCasts S4000x1
  concatenates_S4000x1_S4000x1_S4000x2_d1 : Shape.Concatenates [S4000x1, S4000x1] S4000x2 1
  inb_S2x32_S2x32_0_0 : ∀ a, (![0, 0] : Fin 2 → Nat) a + S2x32.size a ≤ S2x32.size a
  h_S2x32 : 0 < S2x32.numel
  shapeCasts_S2x32_S2x32 : S2x32.ShapeCasts S2x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  bitsLt_bf16_f32 : FTy.bits .bf16 < FTy.bits .f32
  broadcasts_S1x32_S4000x32 : S1x32.Broadcasts S4000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  broadcasts_S4000x1_S4000x32 : S4000x1.Broadcasts S4000x32
  broadcasts_S4000x1_S4000x3 : S4000x1.Broadcasts S4000x3
  concatenates_S4000x3_S4000x1_S4000x4_d1 : Shape.Concatenates [S4000x3, S4000x1] S4000x4 1
  inb_S4000x32_S4000x32_0_0 : ∀ a, (![0, 0] : Fin 2 → Nat) a + S4000x32.size a ≤ S4000x32.size a
  h_S4000x32 : 0 < S4000x32.numel
  inb_S4000x4_S4000x4_0_0 : ∀ a, (![0, 0] : Fin 2 → Nat) a + S4000x4.size a ≤ S4000x4.size a
  h_S4000x4 : 0 < S4000x4.numel
  bcast_S_S100000x4 : S_.BroadcastsInDim S100000x4 (![] : Fin 0 → Fin S100000x4.rank)
  slices_S100000x4_S100000x3_0_0 : S100000x4.Slices ![0, 0] S100000x3
  slices_S100000x4_S100000x1_0_3 : S100000x4.Slices ![0, 3] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  bcast_S_S100000x3 : S_.BroadcastsInDim S100000x3 (![] : Fin 0 → Fin S100000x3.rank)
  gather_S100000x3_S3200000x1_S3200000x3_1_0_n_n_0_1_13_wf : GatherDims.WF S100000x3 S3200000x1 S3200000x3 [1] [0] [] [0] [] 1 ![1, 3]
  dot_S4000x2_S2x32_S4000x32_1_0_0_1_n_n_wf : DotDims.WF S4000x2 S2x32 S4000x32 [1] [0] [0] [1] [] []
  dot_S4000x32_S32x32_S4000x32_1_0_0_1_n_n_wf : DotDims.WF S4000x32 S32x32 S4000x32 [1] [0] [0] [1] [] []
  dot_S4000x32_S32x1_S4000x1_1_0_0_1_n_n_wf : DotDims.WF S4000x32 S32x1 S4000x1 [1] [0] [0] [1] [] []
  scatter_S100000x4_S3200000x1_S3200000x4_1_0_0_1_wf : ScatterDims.WF S100000x4 S3200000x1 S3200000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S3200000x3.size a
  hwx0_0 : ∀ i : grid0.Coords, EltTy.bits .f32 = 32 ∨ (Rect.block (s := S3200000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x3.size a ≤ S3200000x3.size a
  hwx0_1 : ∀ i : grid0.Coords, EltTy.bits .f32 = 32 ∨ (Rect.block (s := S3200000x3) S4000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x32.size a ≤ S2x32.size a
  hwx0_2 : ∀ i : grid0.Coords, EltTy.bits .f32 = 32 ∨ (Rect.block (s := S2x32) S2x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x1.size a ≤ S32x1.size a
  hwx0_9 : ∀ i : grid0.Coords, EltTy.bits .f32 = 32 ∨ (Rect.block (s := S32x1) S32x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x32.size a ≤ S3200000x32.size a
  hwx0_11 : ∀ i : grid0.Coords, EltTy.bits .f32 = 32 ∨ (Rect.block (s := S3200000x32) S4000x32.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x4.size a ≤ S3200000x4.size a
  hwx0_12 : ∀ i : grid0.Coords, EltTy.bits .f32 = 32 ∨ (Rect.block (s := S3200000x4) S4000x4.size (cc0_transform_12 i) (hinb0_12 i)).WholeWords (EltTy.packing .f32)

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def dot_S4000x2_S2x32_S4000x32_1_0_0_1_n_n : DotDims S4000x2 S2x32 S4000x32 where
  lhsContracting := [1]
  rhsContracting := [0]
  lhsNonContracting := [0]
  rhsNonContracting := [1]
  lhsBatch := []
  rhsBatch := []
  wf := dot_S4000x2_S2x32_S4000x32_1_0_0_1_n_n_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf

abbrev win0_0 : Pipeline.Window sig grid0 :=
  Pipeline.Window.ofSpec (Memref.whole main_v10) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S2x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S32x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31_0) S4000x32.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v31_1) S4000x4.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S3200000x2 : Shape := ⟨2, ![3200000, 2]⟩
abbrev S3200000x32 : Shape := ⟨2, ![3200000, 32]⟩
abbrev S1x32 : Shape := ⟨2, ![1, 32]⟩
abbrev S1x1 : Shape := ⟨2, ![1, 1]⟩
abbrev S100000 : Shape := ⟨1, ![100000]⟩
abbrev S100000x1 : Shape := ⟨2, ![100000, 1]⟩

abbrev nBuf : Space → Nat
  | .hbm => 131
  | .vmem => 0
  | .smem => 0
  | _ => 0

abbrev hbmTy0_0 (i : Nat) : BufTy := match i % 128 with
  | 0 => ⟨S100000x3, .f32⟩
  | 1 => ⟨S2x3200000, .i32⟩
  | 2 => ⟨S2x32, .f32⟩
  | 3 => ⟨S32, .f32⟩
  | 4 => ⟨S32, .f32⟩
  | 5 => ⟨S32, .f32⟩
  | 6 => ⟨S32, .f32⟩
  | 7 => ⟨S32x32, .f32⟩
  | 8 => ⟨S32, .f32⟩
  | 9 => ⟨S32x32, .f32⟩
  | 10 => ⟨S32, .f32⟩
  | 11 => ⟨S32x1, .f32⟩
  | 12 => ⟨S32x1, .f32⟩
  | 13 => ⟨S1, .f32⟩
  | 14 => ⟨S1x3200000, .i32⟩
  | 15 => ⟨S3200000, .i32⟩
  | 16 => ⟨S1x3200000, .i32⟩
  | 17 => ⟨S3200000, .i32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S3200000x3, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000x3, .f32⟩
  | 36 => ⟨S3200000x3, .f32⟩
  | 37 => ⟨S3200000x3, .f32⟩
  | 38 => ⟨S_, .f32⟩
  | 39 => ⟨S3200000, .f32⟩
  | 40 => ⟨S3200000x1, .f32⟩
  | 41 => ⟨S3200000x1, .f32⟩
  | 42 => ⟨S3200000x1, .f32⟩
  | 43 => ⟨S3200000x1, .f32⟩
  | 44 => ⟨S3200000x1, .f32⟩
  | 45 => ⟨S3200000x3, .f32⟩
  | 46 => ⟨S_, .f32⟩
  | 47 => ⟨S3200000, .f32⟩
  | 48 => ⟨S3200000x1, .f32⟩
  | 49 => ⟨S3200000x1, .f32⟩
  | 50 => ⟨S3200000x1, .f32⟩
  | 51 => ⟨S3200000x1, .f32⟩
  | 52 => ⟨S3200000x1, .f32⟩
  | 53 => ⟨S3200000x2, .f32⟩
  | 54 => ⟨S3200000x32, .f32⟩
  | 55 => ⟨S1x32, .f32⟩
  | 56 => ⟨S3200000x32, .f32⟩
  | 57 => ⟨S3200000x32, .f32⟩
  | 58 => ⟨S_, .f32⟩
  | 59 => ⟨S32, .f32⟩
  | 60 => ⟨S32, .f32⟩
  | 61 => ⟨S32, .f32⟩
  | 62 => ⟨S32, .f32⟩
  | 63 => ⟨S1x32, .f32⟩
  | 64 => ⟨S3200000x32, .f32⟩
  | 65 => ⟨S3200000x32, .f32⟩
  | 66 => ⟨S1x32, .f32⟩
  | 67 => ⟨S3200000x32, .f32⟩
  | 68 => ⟨S3200000x32, .f32⟩
  | 69 => ⟨S_, .f32⟩
  | 70 => ⟨S3200000x32, .f32⟩
  | 71 => ⟨S3200000x32, .f32⟩
  | 72 => ⟨S3200000x32, .f32⟩
  | 73 => ⟨S1x32, .f32⟩
  | 74 => ⟨S3200000x32, .f32⟩
  | 75 => ⟨S3200000x32, .f32⟩
  | 76 => ⟨S_, .f32⟩
  | 77 => ⟨S3200000x32, .f32⟩
  | 78 => ⟨S3200000x32, .f32⟩
  | 79 => ⟨S3200000x1, .f32⟩
  | 80 => ⟨S1x1, .f32⟩
  | 81 => ⟨S3200000x1, .f32⟩
  | 82 => ⟨S3200000x1, .f32⟩
  | 83 => ⟨S3200000x1, .f32⟩
  | 84 => ⟨S3200000x1, .f32⟩
  | 85 => ⟨S_, .f32⟩
  | 86 => ⟨S3200000x1, .f32⟩
  | 87 => ⟨S3200000x1, .f32⟩
  | 88 => ⟨S_, .f32⟩
  | 89 => ⟨S3200000x1, .f32⟩
  | 90 => ⟨S3200000x1, .f32⟩
  | 91 => ⟨S3200000x32, .f32⟩
  | 92 => ⟨S3200000x32, .f32⟩
  | 93 => ⟨S3200000x32, .f32⟩
  | 94 => ⟨S1x32, .f32⟩
  | 95 => ⟨S3200000x32, .f32⟩
  | 96 => ⟨S3200000x32, .f32⟩
  | 97 => ⟨S_, .f32⟩
  | 98 => ⟨S3200000x32, .f32⟩
  | 99 => ⟨S3200000x32, .f32⟩
  | 100 => ⟨S3200000x1, .f32⟩
  | 101 => ⟨S3200000x3, .f32⟩
  | 102 => ⟨S3200000x3, .f32⟩
  | 103 => ⟨S_, .f32⟩
  | 104 => ⟨S_, .f32⟩
  | 105 => ⟨S_, .f32⟩
  | 106 => ⟨S3200000x3, .f32⟩
  | 107 => ⟨S3200000x3, .f32⟩
  | 108 => ⟨S_, .f32⟩
  | 109 => ⟨S3200000x3, .f32⟩
  | 110 => ⟨S3200000x3, .f32⟩
  | 111 => ⟨S_, .f32⟩
  | 112 => ⟨S100000x3, .f32⟩
  | 113 => ⟨S3200000x1, .i32⟩
  | 114 => ⟨S100000x3, .f32⟩
  | 115 => ⟨S_, .f32⟩
  | 116 => ⟨S3200000, .f32⟩
  | 117 => ⟨S_, .f32⟩
  | 118 => ⟨S100000, .f32⟩
  | 119 => ⟨S3200000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x3, .f32⟩
  | 126 => ⟨S100000x3, .f32⟩
  | 127 => ⟨S_, .f32⟩
  | _ => ⟨S100000x3, .f32⟩

abbrev hbmTy0_1 (i : Nat) : BufTy := match i % 128 with
  | 0 => ⟨S100000x3, .f32⟩
  | 1 => ⟨S100000x3, .f32⟩
  | 2 => ⟨S100000x3, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_5 : Ref sig .tc := ⟨.hbm, 85, rfl⟩
abbrev main_v60 : Ref sig .tc := ⟨.hbm, 86, rfl⟩
abbrev main_v61 : Ref sig .tc := ⟨.hbm, 87, rfl⟩
abbrev main_cst_6 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_call2_cst : Ref sig .tc := ⟨.hbm, 97, rfl⟩
abbrev main_call2_v0 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_7 : Ref sig .tc := ⟨.hbm, 103, rfl⟩
abbrev main_cst_8 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_v74 : Ref sig .tc := ⟨.hbm, 110, rfl⟩
abbrev main_cst_9 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_10 : Ref sig .tc := ⟨.hbm, 115, rfl⟩
abbrev main_v78 : Ref sig .tc := ⟨.hbm, 116, rfl⟩
abbrev main_cst_11 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_12 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_13 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  h_S_ : 0 < S_.numel
  concatenates_S3200000x1_S3200000x1_S3200000x2_d1 : Shape.Concatenates [S3200000x1, S3200000x1] S3200000x2 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S32 : S_.BroadcastsInDim S32 (![] : Fin 0 → Fin S32.rank)
  bcast_S_S3200000x32 : S_.BroadcastsInDim S3200000x32 (![] : Fin 0 → Fin S3200000x32.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  bcast_S_S3200000x1 : S_.BroadcastsInDim S3200000x1 (![] : Fin 0 → Fin S3200000x1.rank)
  bcast_S3200000x1_S3200000x32_0_1 : S3200000x1.BroadcastsInDim S3200000x32 (![0, 1] : Fin 2 → Fin S3200000x32.rank)
  bcast_S3200000x1_S3200000x3_0_1 : S3200000x1.BroadcastsInDim S3200000x3 (![0, 1] : Fin 2 → Fin S3200000x3.rank)
  bcast_S_S3200000x3 : S_.BroadcastsInDim S3200000x3 (![] : Fin 0 → Fin S3200000x3.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  gather_S100000x3_S3200000x1_S3200000x3_1_0_n_n_0_1_13_wf : GatherDims.WF S100000x3 S3200000x1 S3200000x3 [1] [0] [] [0] [] 1 ![1, 3]
  dot_S3200000x2_S2x32_S3200000x32_1_0_0_1_n_n_wf : DotDims.WF S3200000x2 S2x32 S3200000x32 [1] [0] [0] [1] [] []
  dot_S3200000x32_S32x32_S3200000x32_1_0_0_1_n_n_wf : DotDims.WF S3200000x32 S32x32 S3200000x32 [1] [0] [0] [1] [] []
  dot_S3200000x32_S32x1_S3200000x1_1_0_0_1_n_n_wf : DotDims.WF S3200000x32 S32x1 S3200000x1 [1] [0] [0] [1] [] []
  scatter_S100000x3_S3200000x1_S3200000x3_1_0_0_1_wf : ScatterDims.WF S100000x3 S3200000x1 S3200000x3 [1] [0] [0] 1
  scatter_S100000_S3200000x1_S3200000_n_0_0_1_wf : ScatterDims.WF S100000 S3200000x1 S3200000 [] [0] [0] 1

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def dot_S3200000x2_S2x32_S3200000x32_1_0_0_1_n_n : DotDims S3200000x2 S2x32 S3200000x32 where
  lhsContracting := [1]
  rhsContracting := [0]
  lhsNonContracting := [0]
  rhsNonContracting := [1]
  lhsBatch := []
  rhsBatch := []
  wf := dot_S3200000x2_S2x32_S3200000x32_1_0_0_1_n_n_wf
def dot_S3200000x32_S32x32_S3200000x32_1_0_0_1_n_n : DotDims S3200000x32 S32x32 S3200000x32 where
  lhsContracting := [1]
  rhsContracting := [0]
  lhsNonContracting := [0]
  rhsNonContracting := [1]
  lhsBatch := []
  rhsBatch := []
  wf := dot_S3200000x32_S32x32_S3200000x32_1_0_0_1_n_n_wf
def dot_S3200000x32_S32x1_S3200000x1_1_0_0_1_n_n : DotDims S3200000x32 S32x1 S3200000x1 where
  lhsContracting := [1]
  rhsContracting := [0]
  lhsNonContracting := [0]
  rhsNonContracting := [1]
  lhsBatch := []
  rhsBatch := []
  wf := dot_S3200000x32_S32x1_S3200000x1_1_0_0_1_n_n_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.LibRowOps.lean ====
/-
  Layout operations on arrays of rows, read at an index.

  A row-wise sum, the column-vector forms of a reshape and of a broadcast, the two pieces of a
  concatenation along the last axis, and the plain matrix product into a zero accumulator — each read at
  `(r, c)` as the operand's elements it depends on.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Lib.RowOps

open Idealize.ShloMosaic Idealize.ShloMosaic.ValueIdx

variable {α : Type}

/-- A length-`a` vector reshaped to a column `[a, 1]` reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Two arrays joined along the last axis: a column below the first extent is the first array's. -/
theorem concat_cols_left {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (hc : c.val < b₁) :
    concatenate ⟨2, ![a, b₁ + b₂]⟩ 1 [⟨⟨2, ![a, b₁]⟩, x₁⟩, ⟨⟨2, ![a, b₂]⟩, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

/-- … and a column from the first extent on is the second array's, the first extent less. -/
theorem concat_cols_right {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (c' : Fin b₂)
    (hc : c'.val + b₁ = c.val) :
    concatenate ⟨2, ![a, b₁ + b₂]⟩ 1 [⟨⟨2, ![a, b₁]⟩, x₁⟩, ⟨⟨2, ![a, b₂]⟩, x₂⟩] h (ix2 r c) = x₂ (ix2 r c') :=
  concatenate_pair_apply_right 1 x₁ x₂ h (ix2 r c) rfl rfl (ix2 r c') (fun b hb => by
    match b with
    | ⟨0, _⟩ => rfl
    | ⟨1, _⟩ => exact absurd rfl hb) hc

/-- A length-`b` vector broadcast to a one-row array `[1, b]` along its second axis reads, at `(u, c)`, the vector at `c`. -/
theorem bcastInDim_b_1b {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row array `[1, b]` broadcast to `[a, b]` axis by axis reads, at `(p, c)`, the row at `c`. -/
theorem bcastInDim_1b_ab {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column `[a, 1]` broadcast to `[a, b]` axis by axis reads, at `(p, c)`, the column at `p`. -/
theorem bcastInDim_a1_ab {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to a column `[a, 1]` along its first axis reads, at `(p, u)`, the vector at `p`. -/
theorem bcastInDim_a_a1 {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A scalar broadcast to any shape reads the scalar everywhere. -/
theorem bcastInDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 fun ax => ax.elim0

/-- A sum over the last axis of an `[a, b]` array of extended reals, read at `r`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The same for a single-precision array whose printed accumulator is the zero pattern, the proof argument typed as printed. -/
theorem rowSum_f32_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- The plain product of an `m×k` by a `k×n` matrix accumulated into zeros, read at `(a, b)` on the extended reals. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have e : matmul (DotDims.plain m k n) prec A B (constant ⟨2, ![m, n]⟩ .f32 0x00000000#32) (ix2 a b)
      = Host.dotGeneral (DotDims.plain m k n) prec A B (ix2 a b) := by
    show FloatOps.matmul _ prec A B _ (ix2 a b) = FloatOps.dotGeneral _ prec _ A B (ix2 a b)
    rw [Ideal.matmul_constant_zero_apply, Ideal.dotGeneral_apply]
  rw [e]
  exact StackMember.dotGeneral_plain_apply prec A B a b

end Cert.Lib.RowOps

end
-- ==== Proof.KernelArrays.lean ====
/-
  What the kernel's launch finds in the arrays its windows stage.  The two gathered arrays of edge end points are
  the reference's own (the same operations of the same arguments).  The first layer's weights arrive with the
  batch normalisation folded in: `W1[k, c] · σ[c]` and `β[c] − μ[c] · σ[c]` with `σ = γ · (v + ε)^(−1/2)`.  The
  biases arrive as one-row arrays.
-/
import proofs.«123867_j936302870591_2_alg».proof.Proof.Gen.KernelIdeal.Frame
import proofs.«123867_j936302870591_2_alg».proof.Proof.Gen.ReferenceIdeal.Read
import proofs.«123867_j936302870591_2_alg».proof.Proof.LibRowOps
import Idealize.ShloMosaic.Lib.StableHlo.Run

set_option maxRecDepth 16384
-- some forty host operations precede the region: a staged array is their composite of the arguments
set_option maxHeartbeats 4000000

noncomputable section

namespace Cert.KernelArrays

open Idealize.ShloMosaic Idealize.ShloMosaic.TcCoe Idealize.ShloMosaic.ValueIdx Idealize.SL.Sem Idealize.ShloMosaic.StableHlo
open Cert.KernelIdeal Cert.KernelIdeal.Gen Cert.Lib.RowOps

variable (m : (ℓ : Loc nD τ sig) → Buf (Elt Ideal) ℓ) (c : Dev nD)

/-- Argument 0 as launched, as an array of extended reals. -/
abbrev a0 : FVec Ideal S100000x3 .f32 := m ((c : Thread nD τ).loc main_arg0)
/-- Argument 2 as launched, as an array of extended reals. -/
abbrev a2 : FVec Ideal S2x32 .f32 := m ((c : Thread nD τ).loc main_arg2)
/-- Argument 3 as launched, as an array of extended reals. -/
abbrev a3 : FVec Ideal S32 .f32 := m ((c : Thread nD τ).loc main_arg3)
/-- Argument 4 as launched, as an array of extended reals. -/
abbrev a4 : FVec Ideal S32 .f32 := m ((c : Thread nD τ).loc main_arg4)
/-- Argument 5 as launched, as an array of extended reals. -/
abbrev a5 : FVec Ideal S32 .f32 := m ((c : Thread nD τ).loc main_arg5)
/-- Argument 6 as launched, as an array of extended reals. -/
abbrev a6 : FVec Ideal S32 .f32 := m ((c : Thread nD τ).loc main_arg6)
/-- Argument 7 as launched, as an array of extended reals. -/
abbrev a7 : FVec Ideal S32x32 .f32 := m ((c : Thread nD τ).loc main_arg7)
/-- Argument 8 as launched, as an array of extended reals. -/
abbrev a8 : FVec Ideal S32 .f32 := m ((c : Thread nD τ).loc main_arg8)
/-- Argument 9 as launched, as an array of extended reals. -/
abbrev a9 : FVec Ideal S32x32 .f32 := m ((c : Thread nD τ).loc main_arg9)
/-- Argument 10 as launched, as an array of extended reals. -/
abbrev a10 : FVec Ideal S32 .f32 := m ((c : Thread nD τ).loc main_arg10)
/-- Argument 11 as launched, as an array of extended reals. -/
abbrev a11 : FVec Ideal S32x1 .f32 := m ((c : Thread nD τ).loc main_arg11)
/-- Argument 12 as launched, as an array of extended reals. -/
abbrev a12 : FVec Ideal S32x1 .f32 := m ((c : Thread nD τ).loc main_arg12)
/-- Argument 13 as launched, as an array of extended reals. -/
abbrev a13 : FVec Ideal S1 .f32 := m ((c : Thread nD τ).loc main_arg13)
/-- The edge list as launched. -/
abbrev a1 : IVec S2x3200000 32 := m ((c : Thread nD τ).loc main_arg1)

/-- The first gathered array is the reference's. -/
theorem V_v10 : (V m c main_v10 : S3200000x3.Idx → EReal)
    = Cert.ReferenceIdeal.Read.val_main_v10 (F := Ideal) (a0 m c) (a1 m c) := by
  show StableHlo.after hostOps0 (fun b => m (c, b)) (Proc.devRef .tc main_v10) = _
  after_results
  rfl

/-- The second gathered array is the reference's. -/
theorem V_v17 : (V m c main_v17 : S3200000x3.Idx → EReal)
    = Cert.ReferenceIdeal.Read.val_main_v17 (F := Ideal) (a0 m c) (a1 m c) := by
  show StableHlo.after hostOps0 (fun b => m (c, b)) (Proc.devRef .tc main_v17) = _
  after_results
  rfl

/-- The row numbers the scatter reads are the reference's. -/
theorem V_v1 : (V m c main_v1 : S3200000.Idx → BitVec 32)
    = Cert.ReferenceIdeal.Read.val_main_v1 (F := Ideal) (a1 m c) := by
  show StableHlo.after hostOps0 (fun b => m (c, b)) (Proc.devRef .tc main_v1) = _
  after_results
  rfl

/-- The folded first-layer weights. -/
theorem V_v24_apply (k : Fin 2) (j : Fin 32) : (V m c main_v24 : S2x32.Idx → EReal) (ix2 k j)
    = (a2 m c) (ix2 k j) * ((a3 m c) (ix1 j) * Ideal.rsqrt ((a6 m c) (ix1 j) + Ideal.ofBits .f32 0x3727C5AC#32)) := by
  have e : (V m c main_v24 : S2x32.Idx → EReal) = mulf (a2 m c) (broadcastInDim S2x32 ![0, 1] bcast_S1x32_S2x32_0_1
      (broadcastInDim S1x32 ![1] bcast_S32_S1x32_1 (mulf (a3 m c) (Host.rsqrt (addf (a6 m c)
        (broadcastInDim S32 ![] bcast_S_S32 (constant (F := Ideal) S_ .f32 0x3727C5AC#32))))))) := by
    show StableHlo.after hostOps0 (fun b => m (c, b)) (Proc.devRef .tc main_v24) = _
    after_results
  rw [e, mulf_apply, bcastInDim_1b_ab, bcastInDim_b_1b, mulf_apply]
  show _ * (_ * FloatOps.hostUnary .rsqrt (addf _ _ (ix1 j))) = _
  rw [addf_apply, bcastInDim_scalar]
  rfl

/-- The folded first-layer bias, as a one-row array. -/
theorem V_v27_apply (j : Fin 32) : (V m c main_v27 : S1x32.Idx → EReal) (ix2 (0 : Fin 1) j)
    = (a4 m c) (ix1 j) - (a5 m c) (ix1 j) * ((a3 m c) (ix1 j) * Ideal.rsqrt ((a6 m c) (ix1 j) + Ideal.ofBits .f32 0x3727C5AC#32)) := by
  have e : (V m c main_v27 : S1x32.Idx → EReal) = shapeCast S1x32 (subf (a4 m c) (mulf (a5 m c) (mulf (a3 m c) (Host.rsqrt (addf (a6 m c)
        (broadcastInDim S32 ![] bcast_S_S32 (constant (F := Ideal) S_ .f32 0x3727C5AC#32))))))) shapeCasts_S32_S1x32 := by
    show StableHlo.after hostOps0 (fun b => m (c, b)) (Proc.devRef .tc main_v27) = _
    after_results
    rfl
  rw [e, shapeCast_a_1a_apply, subf_apply, mulf_apply, mulf_apply]
  show _ - _ * (_ * FloatOps.hostUnary .rsqrt (addf _ _ (ix1 j))) = _
  rw [addf_apply, bcastInDim_scalar]
  rfl

/-- The second layer's bias, as a one-row array. -/
theorem V_v28_apply (j : Fin 32) : (V m c main_v28 : S1x32.Idx → EReal) (ix2 (0 : Fin 1) j) = (a8 m c) (ix1 j) := by
  have e : (V m c main_v28 : S1x32.Idx → EReal) = shapeCast S1x32 (a8 m c) shapeCasts_S32_S1x32 := by
    show StableHlo.after hostOps0 (fun b => m (c, b)) (Proc.devRef .tc main_v28) = _
    after_results
    rfl
  rw [e, shapeCast_a_1a_apply]

/-- The third layer's bias, as a one-row array. -/
theorem V_v29_apply (j : Fin 32) : (V m c main_v29 : S1x32.Idx → EReal) (ix2 (0 : Fin 1) j) = (a10 m c) (ix1 j) := by
  have e : (V m c main_v29 : S1x32.Idx → EReal) = shapeCast S1x32 (a10 m c) shapeCasts_S32_S1x32 := by
    show StableHlo.after hostOps0 (fun b => m (c, b)) (Proc.devRef .tc main_v29) = _
    after_results
    rfl
  rw [e, shapeCast_a_1a_apply]

/-- The gate's bias, as a one-by-one array. -/
theorem V_v30_apply : (V m c main_v30 : S1x1.Idx → EReal) (ix2 (0 : Fin 1) (0 : Fin 1)) = (a13 m c) (ix1 (0 : Fin 1)) := by
  have e : (V m c main_v30 : S1x1.Idx → EReal) = shapeCast S1x1 (a13 m c) shapeCasts_S1_S1x1 := by
    show StableHlo.after hostOps0 (fun b => m (c, b)) (Proc.devRef .tc main_v30) = _
    after_results
    rfl
  rw [e, shapeCast_a_1a_apply]

end Cert.KernelArrays

end
-- ==== Proof.EdgeSpec.lean ====
/-
  The per-edge mathematics, on the extended reals.

  An edge with end points `a`, `b` (rows of three coordinates) has two features, the squashed squared
  distance and the squashed inner product, `ψ(t) = sign t · log(1 + |t|)`.  A first layer maps them to 32
  hidden values through a linear map followed by an evaluation-mode batch normalisation and a
  rectifier.  The batch normalisation `(s − μ) · γ/√(v + ε) + β` can be folded into the linear map:
  with `σ = γ · (v + ε)^(−1/2)` the same value is `Σ f·(W·σ) + (β − μ·σ)`.  The two forms agree when every
  quantity is a real number and `v + ε > 0`: this is distributivity, which the extended reals lack at
  the infinities, so finiteness is used exactly here.
-/
import Idealize.ShloMosaic.PureOps.Ideal
import Idealize.ShloMosaic.PureOps.Ideal.Laws
import Idealize.ShloMosaic.Lib.ValueIdx

noncomputable section

namespace Cert.EdgeSpec

open Idealize.ShloMosaic Idealize.ShloMosaic.ValueIdx

/-- `ψ(t) = sign t · log(1 + |t|)`. -/
def psi (t : EReal) : EReal := Ideal.sign t * Ideal.log1p (max t (-t))

/-- `ψ` of a real number is a real number. -/
theorem psi_coe (r : ℝ) : psi (r : EReal) = ((SignType.sign r * Real.log (1 + max r (-r)) : ℝ) : EReal) := by
  unfold psi Ideal.log1p
  rw [← EReal.coe_neg, ← EReal.coe_strictMono.monotone.map_max, ← EReal.coe_one, ← EReal.coe_add, Ideal.log_coe,
    if_neg (by have : 0 ≤ max r (-r) := by rcases le_total 0 r with h | h
                                           · exact le_max_of_le_left h
                                           · exact le_max_of_le_right (by linarith)
               linarith),
    Ideal.sign_coe, ← EReal.coe_mul]

/-- The binary value of the single-precision literal nearest `1e-5` is a positive real. -/
theorem eps_pos : ∃ ε : ℝ, 0 < ε ∧ Ideal.ofBits .f32 0x3727C5AC#32 = (ε : EReal) := by
  refine ⟨10995116 * (2 : ℝ) ^ (-40 : Int), by positivity, ?_⟩
  simp [Ideal.ofBits, Ideal.ieee, -EReal.coe_mul]

/-- The single-precision pattern of `1.0` denotes the real `1`. -/
theorem ofBits_one : Ideal.ofBits .f32 0x3F800000#32 = 1 := by
  simp [Ideal.ofBits, Ideal.ieee, -EReal.coe_mul]; norm_num

/-- Folding an evaluation-mode batch normalisation into the preceding two-input linear map: for real features,
    weights and statistics and a positive `v`, the folded form equals the normalised form. -/
theorem fold_law (f W : Fin 2 → ℝ) (γ β μ v : ℝ) (hv : 0 < v) :
    (∑ k : Fin 2, (f k : EReal) * ((W k : EReal) * ((γ : EReal) * Ideal.rsqrt (v : EReal))))
        + ((β : EReal) - (μ : EReal) * ((γ : EReal) * Ideal.rsqrt (v : EReal)))
      = ((∑ k : Fin 2, (f k : EReal) * (W k : EReal)) - (μ : EReal)) * Ideal.div (γ : EReal) (Ideal.sqrt (v : EReal))
        + (β : EReal) := by
  have hs : Real.sqrt v ≠ 0 := (Real.sqrt_pos.mpr hv).ne'
  rw [Ideal.rsqrt_coe, if_neg (not_lt.mpr hv.le), if_neg hv.ne', Ideal.sqrt_coe, if_neg (not_lt.mpr hv.le),
    Ideal.div_coe hs]
  simp only [Fin.sum_univ_two, ← EReal.coe_mul, ← EReal.coe_add, ← EReal.coe_sub]
  rw [EReal.coe_eq_coe_iff]
  rw [one_div]
  ring

/-- The second layer, the gate and the gated message, from the first layer's pre-activation row `h`:
    `h₂ = relu (relu h · W₂ + b₂)`, the gate `1 / (1 + exp (−(h₂ · W₅ + b₅)))`, the message `h₂ · gate`. -/
def msgRow (h : Fin 32 → EReal) (W2 : (⟨2, ![32, 32]⟩ : Shape).Idx → EReal) (b2 : Fin 32 → EReal)
    (W5 : (⟨2, ![32, 1]⟩ : Shape).Idx → EReal) (b5 : EReal) (c : Fin 32) : EReal :=
  max ((∑ k : Fin 32, max (h k) 0 * W2 (ix2 k c)) + b2 c) 0 *
    Ideal.div 1 (1 + Ideal.exp (-((∑ j : Fin 32, max ((∑ k : Fin 32, max (h k) 0 * W2 (ix2 k j)) + b2 j) 0 * W5 (ix2 j (0 : Fin 1))) + b5)))

/-- The coordinate head: the difference coordinate `dx` scaled by `relu (msg · W₃ + b₃) · W₄`. -/
def headRow (dx : EReal) (msg : Fin 32 → EReal) (W3 : (⟨2, ![32, 32]⟩ : Shape).Idx → EReal) (b3 : Fin 32 → EReal)
    (W4 : (⟨2, ![32, 1]⟩ : Shape).Idx → EReal) : EReal :=
  dx * ∑ k : Fin 32, max ((∑ j : Fin 32, msg j * W3 (ix2 j k)) + b3 k) 0 * W4 (ix2 k (0 : Fin 1))

/-- A squashed feature of a row: `ψ` of the sum of three terms. -/
def feat0 (a b : Fin 3 → EReal) : EReal := psi (∑ k : Fin 3, (a k - b k) * (a k - b k))
def feat1 (a b : Fin 3 → EReal) : EReal := psi (∑ k : Fin 3, a k * b k)

/-- The features of two rows of real numbers are real numbers. -/
theorem feat0_real (a b : Fin 3 → EReal) (ha : ∀ k, ∃ r : ℝ, a k = (r : EReal)) (hb : ∀ k, ∃ r : ℝ, b k = (r : EReal)) :
    ∃ r : ℝ, feat0 a b = (r : EReal) := by
  choose ra hra using ha
  choose rb hrb using hb
  unfold feat0
  simp only [Fin.sum_univ_three, hra, hrb, ← EReal.coe_sub, ← EReal.coe_mul, ← EReal.coe_add]
  exact ⟨_, psi_coe _⟩

theorem feat1_real (a b : Fin 3 → EReal) (ha : ∀ k, ∃ r : ℝ, a k = (r : EReal)) (hb : ∀ k, ∃ r : ℝ, b k = (r : EReal)) :
    ∃ r : ℝ, feat1 a b = (r : EReal) := by
  choose ra hra using ha
  choose rb hrb using hb
  unfold feat1
  simp only [Fin.sum_univ_three, hra, hrb, ← EReal.coe_mul, ← EReal.coe_add]
  exact ⟨_, psi_coe _⟩

/-- The first layer's pre-activation with the batch normalisation folded into the weights (the kernel's form). -/
def h1Folded (f0 f1 w0 w1 γ β μ v ε : EReal) : EReal :=
  (f0 * (w0 * (γ * Ideal.rsqrt (v + ε))) + f1 * (w1 * (γ * Ideal.rsqrt (v + ε)))) + (β - μ * (γ * Ideal.rsqrt (v + ε)))

/-- The first layer's pre-activation with the batch normalisation applied after the linear map (the reference's form). -/
def h1Normed (f0 f1 w0 w1 γ β μ v ε : EReal) : EReal :=
  ((f0 * w0 + f1 * w1) - μ) * Ideal.div γ (Ideal.sqrt (v + ε)) + β

/-- For real features, weights and statistics and a nonnegative variance the two forms agree. -/
theorem h1Folded_eq_h1Normed (f0 f1 w0 w1 γ β μ v : ℝ) (hv : 0 ≤ v) :
    h1Folded f0 f1 w0 w1 γ β μ v (Ideal.ofBits .f32 0x3727C5AC#32) = h1Normed f0 f1 w0 w1 γ β μ v (Ideal.ofBits .f32 0x3727C5AC#32) := by
  obtain ⟨ε, hε, he⟩ := eps_pos
  have h := fold_law ![f0, f1] ![w0, w1] γ β μ (v + ε) (by linarith)
  simp only [Fin.sum_univ_two, Matrix.cons_val_zero, Matrix.cons_val_one, Matrix.head_cons] at h
  unfold h1Folded h1Normed
  rw [he, ← EReal.coe_add]
  exact h

end Cert.EdgeSpec

end
-- ==== Proof.RefIdx.lean ====
/-
  The index maps of the reference's layout operations, at indices given by their coordinates: a broadcast
  of a row or of a column reads the row or column, a reduction over the last axis ranges over a row, and a
  matrix product pairs row `a` of the left operand with column `b` of the right one.
-/
import proofs.«123867_j936302870591_2_alg».proof.Proof.Gen.ReferenceIdeal.Read

namespace Cert.RefIdx

open Idealize.ShloMosaic Idealize.ShloMosaic.ValueIdx

theorem i_v9 (a : Fin 3200000) (u : Fin 1) : Cert.ReferenceIdeal.Read.idx_main_v9 (ix2 a u) = ix1 a := by
  funext ax; refine Fin.ext ?_; match ax with | ⟨0, _⟩ => rfl
theorem i_v16 (a : Fin 3200000) (u : Fin 1) : Cert.ReferenceIdeal.Read.idx_main_v16 (ix2 a u) = ix1 a := by
  funext ax; refine Fin.ext ?_; match ax with | ⟨0, _⟩ => rfl
theorem i_v21 (a : Fin 3200000) (u : Fin 1) : Cert.ReferenceIdeal.Read.idx_main_v21 (ix2 a u) = ix1 a := by
  funext ax; refine Fin.ext ?_; match ax with | ⟨0, _⟩ => rfl
theorem i_v28 (a : Fin 3200000) (u : Fin 1) : Cert.ReferenceIdeal.Read.idx_main_v28 (ix2 a u) = ix1 a := by
  funext ax; refine Fin.ext ?_; match ax with | ⟨0, _⟩ => rfl
theorem i_v76 (a : Fin 3200000) (u : Fin 1) : Cert.ReferenceIdeal.Read.idx_main_v76 (ix2 a u) = ix1 a := by
  funext ax; refine Fin.ext ?_; match ax with | ⟨0, _⟩ => rfl
theorem i_v80 (a : Fin 3200000) (u : Fin 1) : Cert.ReferenceIdeal.Read.idx_main_v80 (ix2 a u) = ix1 a := by
  funext ax; refine Fin.ext ?_; match ax with | ⟨0, _⟩ => rfl
theorem i_v84 (a : Fin 100000) (u : Fin 1) : Cert.ReferenceIdeal.Read.idx_main_v84 (ix2 a u) = ix1 a := by
  funext ax; refine Fin.ext ?_; match ax with | ⟨0, _⟩ => rfl
theorem i_v20 (a : Fin 3200000) (k : Fin 3) : Cert.ReferenceIdeal.Read.idx_main_v20 (ix1 a) k = ix2 a k := by
  funext ax; refine Fin.ext ?_; match ax with | ⟨0, _⟩ => rfl | ⟨1, _⟩ => rfl
theorem i_v27 (a : Fin 3200000) (k : Fin 3) : Cert.ReferenceIdeal.Read.idx_main_v27 (ix1 a) k = ix2 a k := by
  funext ax; refine Fin.ext ?_; match ax with | ⟨0, _⟩ => rfl | ⟨1, _⟩ => rfl
theorem l_v34 (a : Fin 3200000) (b : Fin 32) (k : Fin 2) : Cert.ReferenceIdeal.Read.lidx_main_v34 (ix2 a b) k = ix2 a k := by
  funext ax; refine Fin.ext ?_; match ax with | ⟨0, _⟩ => rfl | ⟨1, _⟩ => rfl
theorem r_v34 (a : Fin 3200000) (b : Fin 32) (k : Fin 2) : Cert.ReferenceIdeal.Read.ridx_main_v34 (ix2 a b) k = ix2 k b := by
  funext ax; refine Fin.ext ?_; match ax with | ⟨0, _⟩ => rfl | ⟨1, _⟩ => rfl
theorem l_v49 (a : Fin 3200000) (b : Fin 32) (k : Fin 32) : Cert.ReferenceIdeal.Read.lidx_main_v49 (ix2 a b) k = ix2 a k := by
  funext ax; refine Fin.ext ?_; match ax with | ⟨0, _⟩ => rfl | ⟨1, _⟩ => rfl
theorem r_v49 (a : Fin 3200000) (b : Fin 32) (k : Fin 32) : Cert.ReferenceIdeal.Read.ridx_main_v49 (ix2 a b) k = ix2 k b := by
  funext ax; refine Fin.ext ?_; match ax with | ⟨0, _⟩ => rfl | ⟨1, _⟩ => rfl
theorem l_v54 (a : Fin 3200000) (b : Fin 1) (k : Fin 32) : Cert.ReferenceIdeal.Read.lidx_main_v54 (ix2 a b) k = ix2 a k := by
  funext ax; refine Fin.ext ?_; match ax with | ⟨0, _⟩ => rfl | ⟨1, _⟩ => rfl
theorem r_v54 (a : Fin 3200000) (b : Fin 1) (k : Fin 32) : Cert.ReferenceIdeal.Read.ridx_main_v54 (ix2 a b) k = ix2 k b := by
  funext ax; refine Fin.ext ?_; match ax with | ⟨0, _⟩ => rfl | ⟨1, _⟩ => rfl
theorem l_v66 (a : Fin 3200000) (b : Fin 32) (k : Fin 32) : Cert.ReferenceIdeal.Read.lidx_main_v66 (ix2 a b) k = ix2 a k := by
  funext ax; refine Fin.ext ?_; match ax with | ⟨0, _⟩ => rfl | ⟨1, _⟩ => rfl
theorem r_v66 (a : Fin 3200000) (b : Fin 32) (k : Fin 32) : Cert.ReferenceIdeal.Read.ridx_main_v66 (ix2 a b) k = ix2 k b := by
  funext ax; refine Fin.ext ?_; match ax with | ⟨0, _⟩ => rfl | ⟨1, _⟩ => rfl
theorem l_v71 (a : Fin 3200000) (b : Fin 1) (k : Fin 32) : Cert.ReferenceIdeal.Read.lidx_main_v71 (ix2 a b) k = ix2 a k := by
  funext ax; refine Fin.ext ?_; match ax with | ⟨0, _⟩ => rfl | ⟨1, _⟩ => rfl
theorem r_v71 (a : Fin 3200000) (b : Fin 1) (k : Fin 32) : Cert.ReferenceIdeal.Read.ridx_main_v71 (ix2 a b) k = ix2 k b := by
  funext ax; refine Fin.ext ?_; match ax with | ⟨0, _⟩ => rfl | ⟨1, _⟩ => rfl
theorem i_v35 (u : Fin 1) (c : Fin 32) : Cert.ReferenceIdeal.Read.idx_main_v35 (ix2 u c) = ix1 c := by
  funext ax; refine Fin.ext ?_; match ax with | ⟨0, _⟩ => rfl
theorem i_v42 (u : Fin 1) (c : Fin 32) : Cert.ReferenceIdeal.Read.idx_main_v42 (ix2 u c) = ix1 c := by
  funext ax; refine Fin.ext ?_; match ax with | ⟨0, _⟩ => rfl
theorem i_v45 (u : Fin 1) (c : Fin 32) : Cert.ReferenceIdeal.Read.idx_main_v45 (ix2 u c) = ix1 c := by
  funext ax; refine Fin.ext ?_; match ax with | ⟨0, _⟩ => rfl
theorem i_v50 (u : Fin 1) (c : Fin 32) : Cert.ReferenceIdeal.Read.idx_main_v50 (ix2 u c) = ix1 c := by
  funext ax; refine Fin.ext ?_; match ax with | ⟨0, _⟩ => rfl
theorem i_v67 (u : Fin 1) (c : Fin 32) : Cert.ReferenceIdeal.Read.idx_main_v67 (ix2 u c) = ix1 c := by
  funext ax; refine Fin.ext ?_; match ax with | ⟨0, _⟩ => rfl
theorem i_v55 (u u' : Fin 1) : Cert.ReferenceIdeal.Read.idx_main_v55 (ix2 u u') = ix1 (0 : Fin 1) := by
  funext ax; refine Fin.ext ?_; match ax with | ⟨0, _⟩ => rfl
theorem i_v36 (a : Fin 3200000) (c : Fin 32) : Cert.ReferenceIdeal.Read.idx_main_v36 (ix2 a c) = ix2 (0 : Fin 1) c := by
  funext ax; refine Fin.ext ?_; match ax with | ⟨0, _⟩ => rfl | ⟨1, _⟩ => rfl
theorem i_v43 (a : Fin 3200000) (c : Fin 32) : Cert.ReferenceIdeal.Read.idx_main_v43 (ix2 a c) = ix2 (0 : Fin 1) c := by
  funext ax; refine Fin.ext ?_; match ax with | ⟨0, _⟩ => rfl | ⟨1, _⟩ => rfl
theorem i_v46 (a : Fin 3200000) (c : Fin 32) : Cert.ReferenceIdeal.Read.idx_main_v46 (ix2 a c) = ix2 (0 : Fin 1) c := by
  funext ax; refine Fin.ext ?_; match ax with | ⟨0, _⟩ => rfl | ⟨1, _⟩ => rfl
theorem i_v51 (a : Fin 3200000) (c : Fin 32) : Cert.ReferenceIdeal.Read.idx_main_v51 (ix2 a c) = ix2 (0 : Fin 1) c := by
  funext ax; refine Fin.ext ?_; match ax with | ⟨0, _⟩ => rfl | ⟨1, _⟩ => rfl
theorem i_v68 (a : Fin 3200000) (c : Fin 32) : Cert.ReferenceIdeal.Read.idx_main_v68 (ix2 a c) = ix2 (0 : Fin 1) c := by
  funext ax; refine Fin.ext ?_; match ax with | ⟨0, _⟩ => rfl | ⟨1, _⟩ => rfl
theorem i_v56 (a : Fin 3200000) (u : Fin 1) : Cert.ReferenceIdeal.Read.idx_main_v56 (ix2 a u) = ix2 (0 : Fin 1) (0 : Fin 1) := by
  funext ax; refine Fin.ext ?_; match ax with | ⟨0, _⟩ => rfl | ⟨1, _⟩ => rfl
theorem i_v64 (a : Fin 3200000) (c : Fin 32) : Cert.ReferenceIdeal.Read.idx_main_v64 (ix2 a c) = ix2 a (0 : Fin 1) := by
  funext ax; refine Fin.ext ?_; match ax with | ⟨0, _⟩ => rfl | ⟨1, _⟩ => rfl
theorem i_v72 (a : Fin 3200000) (c : Fin 3) : Cert.ReferenceIdeal.Read.idx_main_v72 (ix2 a c) = ix2 a (0 : Fin 1) := by
  funext ax; refine Fin.ext ?_; match ax with | ⟨0, _⟩ => rfl | ⟨1, _⟩ => rfl
theorem i_v85 (a : Fin 100000) (c : Fin 3) : Cert.ReferenceIdeal.Read.idx_main_v85 (ix2 a c) = ix2 a (0 : Fin 1) := by
  funext ax; refine Fin.ext ?_; match ax with | ⟨0, _⟩ => rfl | ⟨1, _⟩ => rfl

end Cert.RefIdx
-- ==== Proof.RefRows.lean ====
/-
  The reference's layout operations read at an index given by its coordinates: each matrix product as a sum
  over the contracted coordinate, each bias as the bias vector's entry, each broadcast constant as the constant,
  the two features as the two halves of their concatenation.
-/
import proofs.«123867_j936302870591_2_alg».proof.Proof.Gen.ReferenceIdeal.Read
import proofs.«123867_j936302870591_2_alg».proof.Proof.RefIdx
import proofs.«123867_j936302870591_2_alg».proof.Proof.LibRowOps

noncomputable section

namespace Cert.RefRows

open Idealize.ShloMosaic Idealize.ShloMosaic.ValueIdx

variable (x0 : (⟨Cert.ReferenceIdeal.S100000x3, .f32⟩ : BufTy).Contents (Elt Ideal))
  (x1 : (⟨Cert.ReferenceIdeal.S2x3200000, .i32⟩ : BufTy).Contents (Elt Ideal))
  (x2 : (⟨Cert.ReferenceIdeal.S2x32, .f32⟩ : BufTy).Contents (Elt Ideal))
  (x3 x4 x5 x6 : (⟨Cert.ReferenceIdeal.S32, .f32⟩ : BufTy).Contents (Elt Ideal))
  (x7 : (⟨Cert.ReferenceIdeal.S32x32, .f32⟩ : BufTy).Contents (Elt Ideal))
  (x8 : (⟨Cert.ReferenceIdeal.S32, .f32⟩ : BufTy).Contents (Elt Ideal))
  (x9 : (⟨Cert.ReferenceIdeal.S32x32, .f32⟩ : BufTy).Contents (Elt Ideal))
  (x10 : (⟨Cert.ReferenceIdeal.S32, .f32⟩ : BufTy).Contents (Elt Ideal))
  (x11 x12 : (⟨Cert.ReferenceIdeal.S32x1, .f32⟩ : BufTy).Contents (Elt Ideal))
  (x13 : (⟨Cert.ReferenceIdeal.S1, .f32⟩ : BufTy).Contents (Elt Ideal))

theorem ref_v34 (e : Fin 3200000) (c : Fin 32) : Cert.ReferenceIdeal.Read.val_main_v34 (F := Ideal) x0 x1 x2 (ix2 e c) = ∑ k : Fin 2, Cert.ReferenceIdeal.Read.val_main_v33 (F := Ideal) x0 x1 (ix2 e k) * x2 (ix2 k c) := by
  rw [Cert.ReferenceIdeal.Read.val_main_v34_apply]
  refine Finset.sum_congr rfl fun k _ => ?_
  rw [Cert.RefIdx.l_v34, Cert.RefIdx.r_v34]

theorem ref_v49 (e : Fin 3200000) (c : Fin 32) : Cert.ReferenceIdeal.Read.val_main_v49 (F := Ideal) x0 x1 x2 x3 x4 x5 x6 x7 (ix2 e c) = ∑ k : Fin 32, Cert.ReferenceIdeal.Read.val_main_v48 (F := Ideal) x0 x1 x2 x3 x4 x5 x6 (ix2 e k) * x7 (ix2 k c) := by
  rw [Cert.ReferenceIdeal.Read.val_main_v49_apply]
  refine Finset.sum_congr rfl fun k _ => ?_
  rw [Cert.RefIdx.l_v49, Cert.RefIdx.r_v49]

theorem ref_v54 (e : Fin 3200000) (c : Fin 1) : Cert.ReferenceIdeal.Read.val_main_v54 (F := Ideal) x0 x1 x2 x3 x4 x5 x6 x7 x8 x12 (ix2 e c) = ∑ k : Fin 32, Cert.ReferenceIdeal.Read.val_main_v53 (F := Ideal) x0 x1 x2 x3 x4 x5 x6 x7 x8 (ix2 e k) * x12 (ix2 k c) := by
  rw [Cert.ReferenceIdeal.Read.val_main_v54_apply]
  refine Finset.sum_congr rfl fun k _ => ?_
  rw [Cert.RefIdx.l_v54, Cert.RefIdx.r_v54]

theorem ref_v66 (e : Fin 3200000) (c : Fin 32) : Cert.ReferenceIdeal.Read.val_main_v66 (F := Ideal) x0 x1 x2 x3 x4 x5 x6 x7 x8 x9 x12 x13 (ix2 e c) = ∑ k : Fin 32, Cert.ReferenceIdeal.Read.val_main_v65 (F := Ideal) x0 x1 x2 x3 x4 x5 x6 x7 x8 x12 x13 (ix2 e k) * x9 (ix2 k c) := by
  rw [Cert.ReferenceIdeal.Read.val_main_v66_apply]
  refine Finset.sum_congr rfl fun k _ => ?_
  rw [Cert.RefIdx.l_v66, Cert.RefIdx.r_v66]

theorem ref_v71 (e : Fin 3200000) (c : Fin 1) : Cert.ReferenceIdeal.Read.val_main_v71 (F := Ideal) x0 x1 x2 x3 x4 x5 x6 x7 x8 x9 x10 x11 x12 x13 (ix2 e c) = ∑ k : Fin 32, Cert.ReferenceIdeal.Read.val_main_v70 (F := Ideal) x0 x1 x2 x3 x4 x5 x6 x7 x8 x9 x10 x12 x13 (ix2 e k) * x11 (ix2 k c) := by
  rw [Cert.ReferenceIdeal.Read.val_main_v71_apply]
  refine Finset.sum_congr rfl fun k _ => ?_
  rw [Cert.RefIdx.l_v71, Cert.RefIdx.r_v71]

theorem ref_v36 (e : Fin 3200000) (c : Fin 32) : Cert.ReferenceIdeal.Read.val_main_v36 (F := Ideal) x5 (ix2 e c) = x5 (ix1 c) := by
  rw [Cert.ReferenceIdeal.Read.val_main_v36_apply, Cert.RefIdx.i_v36, Cert.ReferenceIdeal.Read.val_main_v35_apply, Cert.RefIdx.i_v35]

theorem ref_v46 (e : Fin 3200000) (c : Fin 32) : Cert.ReferenceIdeal.Read.val_main_v46 (F := Ideal) x4 (ix2 e c) = x4 (ix1 c) := by
  rw [Cert.ReferenceIdeal.Read.val_main_v46_apply, Cert.RefIdx.i_v46, Cert.ReferenceIdeal.Read.val_main_v45_apply, Cert.RefIdx.i_v45]

theorem ref_v51 (e : Fin 3200000) (c : Fin 32) : Cert.ReferenceIdeal.Read.val_main_v51 (F := Ideal) x8 (ix2 e c) = x8 (ix1 c) := by
  rw [Cert.ReferenceIdeal.Read.val_main_v51_apply, Cert.RefIdx.i_v51, Cert.ReferenceIdeal.Read.val_main_v50_apply, Cert.RefIdx.i_v50]

theorem ref_v68 (e : Fin 3200000) (c : Fin 32) : Cert.ReferenceIdeal.Read.val_main_v68 (F := Ideal) x10 (ix2 e c) = x10 (ix1 c) := by
  rw [Cert.ReferenceIdeal.Read.val_main_v68_apply, Cert.RefIdx.i_v68, Cert.ReferenceIdeal.Read.val_main_v67_apply, Cert.RefIdx.i_v67]

theorem ref_v43 (e : Fin 3200000) (c : Fin 32) : Cert.ReferenceIdeal.Read.val_main_v43 (F := Ideal) x3 x6 (ix2 e c) = Cert.ReferenceIdeal.Read.val_main_v41 (F := Ideal) x3 x6 (ix1 c) := by
  rw [Cert.ReferenceIdeal.Read.val_main_v43_apply, Cert.RefIdx.i_v43, Cert.ReferenceIdeal.Read.val_main_v42_apply, Cert.RefIdx.i_v42]

theorem ref_v56 (e : Fin 3200000) (u : Fin 1) : Cert.ReferenceIdeal.Read.val_main_v56 (F := Ideal) x13 (ix2 e u) = x13 (ix1 (0 : Fin 1)) := by
  rw [Cert.ReferenceIdeal.Read.val_main_v56_apply, Cert.RefIdx.i_v56, Cert.ReferenceIdeal.Read.val_main_v55_apply, Cert.RefIdx.i_v55]

theorem ref_v64 (e : Fin 3200000) (c : Fin 32) : Cert.ReferenceIdeal.Read.val_main_v64 (F := Ideal) x0 x1 x2 x3 x4 x5 x6 x7 x8 x12 x13 (ix2 e c) = Cert.ReferenceIdeal.Read.val_main_v63 (F := Ideal) x0 x1 x2 x3 x4 x5 x6 x7 x8 x12 x13 (ix2 e (0 : Fin 1)) := by
  rw [Cert.ReferenceIdeal.Read.val_main_v64_apply, Cert.RefIdx.i_v64]

theorem ref_v72 (e : Fin 3200000) (c : Fin 3) : Cert.ReferenceIdeal.Read.val_main_v72 (F := Ideal) x0 x1 x2 x3 x4 x5 x6 x7 x8 x9 x10 x11 x12 x13 (ix2 e c) = Cert.ReferenceIdeal.Read.val_main_v71 (F := Ideal) x0 x1 x2 x3 x4 x5 x6 x7 x8 x9 x10 x11 x12 x13 (ix2 e (0 : Fin 1)) := by
  rw [Cert.ReferenceIdeal.Read.val_main_v72_apply, Cert.RefIdx.i_v72]

theorem ref_v21 (e : Fin 3200000) (u : Fin 1) : Cert.ReferenceIdeal.Read.val_main_v21 (F := Ideal) x0 x1 (ix2 e u) = Ideal.ofBits .f32 0x00000000#32 + ∑ k : Fin 3, Cert.ReferenceIdeal.Read.val_main_v19 (F := Ideal) x0 x1 (ix2 e k) := by
  rw [Cert.ReferenceIdeal.Read.val_main_v21_apply, Cert.RefIdx.i_v21, Cert.ReferenceIdeal.Read.val_main_v20_apply]
  refine congrArg₂ (· + ·) rfl (Finset.sum_congr rfl fun k _ => ?_)
  rw [Cert.RefIdx.i_v20]

theorem ref_v28 (e : Fin 3200000) (u : Fin 1) : Cert.ReferenceIdeal.Read.val_main_v28 (F := Ideal) x0 x1 (ix2 e u) = Ideal.ofBits .f32 0x00000000#32 + ∑ k : Fin 3, Cert.ReferenceIdeal.Read.val_main_v26 (F := Ideal) x0 x1 (ix2 e k) := by
  rw [Cert.ReferenceIdeal.Read.val_main_v28_apply, Cert.RefIdx.i_v28, Cert.ReferenceIdeal.Read.val_main_v27_apply]
  refine congrArg₂ (· + ·) rfl (Finset.sum_congr rfl fun k _ => ?_)
  rw [Cert.RefIdx.i_v27]

theorem ref_call0_v0 (i : Cert.ReferenceIdeal.S3200000x32.Idx) : Cert.ReferenceIdeal.Read.val_main_call0_v0 (F := Ideal) i = Ideal.ofBits .f32 0x00000000#32 := by
  rw [Cert.ReferenceIdeal.Read.val_main_call0_v0_apply, Cert.ReferenceIdeal.Read.val_main_call0_cst_apply]; rfl

theorem ref_call1_v0 (i : Cert.ReferenceIdeal.S3200000x32.Idx) : Cert.ReferenceIdeal.Read.val_main_call1_v0 (F := Ideal) i = Ideal.ofBits .f32 0x00000000#32 := by
  rw [Cert.ReferenceIdeal.Read.val_main_call1_v0_apply, Cert.ReferenceIdeal.Read.val_main_call1_cst_apply]; rfl

theorem ref_call2_v0 (i : Cert.ReferenceIdeal.S3200000x32.Idx) : Cert.ReferenceIdeal.Read.val_main_call2_v0 (F := Ideal) i = Ideal.ofBits .f32 0x00000000#32 := by
  rw [Cert.ReferenceIdeal.Read.val_main_call2_v0_apply, Cert.ReferenceIdeal.Read.val_main_call2_cst_apply]; rfl

theorem ref_v60 (i : Cert.ReferenceIdeal.S3200000x1.Idx) : Cert.ReferenceIdeal.Read.val_main_v60 (F := Ideal) i = Ideal.ofBits .f32 0x3F800000#32 := by
  rw [Cert.ReferenceIdeal.Read.val_main_v60_apply, Cert.ReferenceIdeal.Read.val_main_cst_5_apply]; rfl

theorem ref_v62 (i : Cert.ReferenceIdeal.S3200000x1.Idx) : Cert.ReferenceIdeal.Read.val_main_v62 (F := Ideal) i = Ideal.ofBits .f32 0x3F800000#32 := by
  rw [Cert.ReferenceIdeal.Read.val_main_v62_apply, Cert.ReferenceIdeal.Read.val_main_cst_6_apply]; rfl

theorem ref_v38 (i : Cert.ReferenceIdeal.S32.Idx) : Cert.ReferenceIdeal.Read.val_main_v38 (F := Ideal) i = Ideal.ofBits .f32 0x3727C5AC#32 := by
  rw [Cert.ReferenceIdeal.Read.val_main_v38_apply, Cert.ReferenceIdeal.Read.val_main_cst_4_apply]; rfl

theorem ref_call3_v1 (i : Cert.ReferenceIdeal.S3200000x3.Idx) : Cert.ReferenceIdeal.Read.val_main_call3_v1 (F := Ideal) i = Ideal.ofBits .f32 0xC2C80000#32 := by
  rw [Cert.ReferenceIdeal.Read.val_main_call3_v1_apply, Cert.ReferenceIdeal.Read.val_main_call3_v0_apply, Cert.ReferenceIdeal.Read.val_main_cst_7_apply]; rfl

theorem ref_call3_v4 (i : Cert.ReferenceIdeal.S3200000x3.Idx) : Cert.ReferenceIdeal.Read.val_main_call3_v4 (F := Ideal) i = Ideal.ofBits .f32 0x42C80000#32 := by
  rw [Cert.ReferenceIdeal.Read.val_main_call3_v4_apply, Cert.ReferenceIdeal.Read.val_main_call3_v3_apply, Cert.ReferenceIdeal.Read.val_main_cst_8_apply]; rfl

theorem ref_v33_0 (e : Fin 3200000) : Cert.ReferenceIdeal.Read.val_main_v33 (F := Ideal) x0 x1 (ix2 e (0 : Fin 2)) = Cert.ReferenceIdeal.Read.val_main_v25 (F := Ideal) x0 x1 (ix2 e (0 : Fin 1)) := by
  unfold Cert.ReferenceIdeal.Read.val_main_v33
  exact Cert.Lib.RowOps.concat_cols_left (b₁ := 1) (b₂ := 1) _ _ _ e (0 : Fin 2) (by decide)

theorem ref_v33_1 (e : Fin 3200000) : Cert.ReferenceIdeal.Read.val_main_v33 (F := Ideal) x0 x1 (ix2 e (1 : Fin 2)) = Cert.ReferenceIdeal.Read.val_main_v32 (F := Ideal) x0 x1 (ix2 e (0 : Fin 1)) := by
  unfold Cert.ReferenceIdeal.Read.val_main_v33
  exact Cert.Lib.RowOps.concat_cols_right (b₁ := 1) (b₂ := 1) _ _ _ e (1 : Fin 2) (0 : Fin 1) rfl

end Cert.RefRows

end
-- ==== Proof.StageCommon.lean ====
/-
  What the stages share: the kernel body's matrix-product dimension records are the plain ones, and the body's
  two concatenations read column by column.
-/
import proofs.«123867_j936302870591_2_alg».proof.Proof.Gen.KernelIdeal.Skeleton
import proofs.«123867_j936302870591_2_alg».proof.Proof.Gen.ReferenceIdeal.Read
import proofs.«123867_j936302870591_2_alg».proof.Proof.LibRowOps
import proofs.«123867_j936302870591_2_alg».proof.Proof.EdgeSpec
import proofs.«123867_j936302870591_2_alg».proof.Proof.RefIdx
import proofs.«123867_j936302870591_2_alg».proof.Proof.RefRows
set_option maxRecDepth 16384

noncomputable section

namespace Cert.Stages

open Idealize.ShloMosaic Idealize.ShloMosaic.ValueIdx Cert.Lib.RowOps
open Cert.KernelIdeal Cert.KernelIdeal.Gen

theorem logistic_apply {s : Shape} {φ : FTy} (x : FVec Ideal s φ) (i : s.Idx) : logistic x i = FloatOps.logistic (x i) := rfl
theorem log1p_apply {s : Shape} {φ : FTy} (x : FVec Ideal s φ) (i : s.Idx) : log1p x i = FloatOps.log1p (x i) := rfl
theorem absf_apply {s : Shape} {φ : FTy} (x : FVec Ideal s φ) (i : s.Idx) : absf x i = FloatOps.absf (x i) := rfl

theorem dot_4000_32_32 : dot_S4000x32_S32x32_S4000x32_1_0_0_1_n_n = DotDims.plain 4000 32 32 := rfl
theorem dot_4000_32_1 : dot_S4000x32_S32x1_S4000x1_1_0_0_1_n_n = DotDims.plain 4000 32 1 := rfl
theorem dot_4000_2_32 : dot_S4000x2_S2x32_S4000x32_1_0_0_1_n_n = DotDims.plain 4000 2 32 := rfl

/-- The two features joined into one two-column array: column 0 is the first, column 1 the second. -/
theorem kconcat2_0 (A B : FVec Ideal S4000x1 .f32) (r : Fin 4000) :
    concatenate S4000x2 1 [⟨S4000x1, A⟩, ⟨S4000x1, B⟩] concatenates_S4000x1_S4000x1_S4000x2_d1 (ix2 r (0 : Fin 2)) = A (ix2 r (0 : Fin 1)) :=
  concat_cols_left (b₁ := 1) (b₂ := 1) A B _ r (0 : Fin 2) (by decide)
theorem kconcat2_1 (A B : FVec Ideal S4000x1 .f32) (r : Fin 4000) :
    concatenate S4000x2 1 [⟨S4000x1, A⟩, ⟨S4000x1, B⟩] concatenates_S4000x1_S4000x1_S4000x2_d1 (ix2 r (1 : Fin 2)) = B (ix2 r (0 : Fin 1)) :=
  concat_cols_right (b₁ := 1) (b₂ := 1) A B _ r (1 : Fin 2) (0 : Fin 1) rfl
/-- The update joined with the column of ones: the first three columns are the update's, the fourth is the ones'. -/
theorem kconcat4_lt (A : FVec Ideal S4000x3 .f32) (B : FVec Ideal S4000x1 .f32) (r : Fin 4000) (d : Fin 3) :
    concatenate S4000x4 1 [⟨S4000x3, A⟩, ⟨S4000x1, B⟩] concatenates_S4000x3_S4000x1_S4000x4_d1 (ix2 r (⟨d.val, by omega⟩ : Fin 4)) = A (ix2 r d) :=
  concat_cols_left (b₁ := 3) (b₂ := 1) A B _ r (⟨d.val, by omega⟩ : Fin 4) d.isLt
theorem kconcat4_3 (A : FVec Ideal S4000x3 .f32) (B : FVec Ideal S4000x1 .f32) (r : Fin 4000) :
    concatenate S4000x4 1 [⟨S4000x3, A⟩, ⟨S4000x1, B⟩] concatenates_S4000x3_S4000x1_S4000x4_d1 (ix2 r (3 : Fin 4)) = B (ix2 r (0 : Fin 1)) :=
  concat_cols_right (b₁ := 3) (b₂ := 1) A B _ r (3 : Fin 4) (0 : Fin 1) rfl

end Cert.Stages

end
-- ==== Proof.RefStages.lean ====
/-
  The reference's message and coordinate-head stages as functions of the stage before, read at an edge: each
  is the specification's row of the edge's row of its operand.  Stated over an arbitrary operand array, so that
  nothing beyond the stage itself is in sight, and joined to the reference's own stages by unfolding.
-/
import proofs.«123867_j936302870591_2_alg».proof.Proof.Gen.ReferenceIdeal.Read
import proofs.«123867_j936302870591_2_alg».proof.Proof.LibRowOps
import proofs.«123867_j936302870591_2_alg».proof.Proof.EdgeSpec

set_option maxRecDepth 16384

noncomputable section

namespace Cert.RefStages

open Idealize.ShloMosaic Idealize.ShloMosaic.ValueIdx Cert.Lib.RowOps Cert.ReferenceIdeal Cert.ReferenceIdeal.Gen

theorem host_divf_apply {s : Shape} {φ : FTy} (x y : FVec Ideal s φ) (i : s.Idx) : Host.divf x y i = FloatOps.hostDivf (x i) (y i) := rfl
theorem host_exp_apply {s : Shape} {φ : FTy} (x : FVec Ideal s φ) (i : s.Idx) : Host.exp x i = FloatOps.hostUnary .exp (x i) := rfl
theorem host_negf_apply {s : Shape} {φ : FTy} (x : FVec Ideal s φ) (i : s.Idx) : Host.negf x i = FloatOps.hostNegf (x i) := rfl

theorem rdot_32_32 : dot_S3200000x32_S32x32_S3200000x32_1_0_0_1_n_n = DotDims.plain 3200000 32 32 := rfl
theorem rdot_32_1 : dot_S3200000x32_S32x1_S3200000x1_1_0_0_1_n_n = DotDims.plain 3200000 32 1 := rfl

/-- The reference's broadcasts, in its own vocabulary: a scalar, a bias row, a column. -/
theorem rb_scalar32 (x : FVec Ideal S_ .f32) (i : S3200000x32.Idx) :
    broadcastInDim S3200000x32 ![] bcast_S_S3200000x32 x i = x ix0 := bcastInDim_scalar x _ i
theorem rb_scalar1 (x : FVec Ideal S_ .f32) (i : S3200000x1.Idx) :
    broadcastInDim S3200000x1 ![] bcast_S_S3200000x1 x i = x ix0 := bcastInDim_scalar x _ i
theorem rb_row32 (x : FVec Ideal S32 .f32) (e : Fin 3200000) (c : Fin 32) :
    broadcastInDim S3200000x32 ![0, 1] bcast_S1x32_S3200000x32_0_1 (broadcastInDim S1x32 ![1] bcast_S32_S1x32_1 x) (ix2 e c) = x (ix1 c) :=
  (bcastInDim_1b_ab _ _ e c).trans (bcastInDim_b_1b x _ 0 c)
theorem rb_row1 (x : FVec Ideal S1 .f32) (e : Fin 3200000) (u : Fin 1) :
    broadcastInDim S3200000x1 ![0, 1] bcast_S1x1_S3200000x1_0_1 (broadcastInDim S1x1 ![1] bcast_S1_S1x1_1 x) (ix2 e u) = x (ix1 (0 : Fin 1)) :=
  (bcastInDim_1b_ab _ _ e u).trans ((bcastInDim_b_1b x _ 0 u).trans (congrArg x (congrArg ix1 (Subsingleton.elim _ _))))
theorem rb_col32 (x : FVec Ideal S3200000x1 .f32) (e : Fin 3200000) (c : Fin 32) :
    broadcastInDim S3200000x32 ![0, 1] bcast_S3200000x1_S3200000x32_0_1 x (ix2 e c) = x (ix2 e (0 : Fin 1)) :=
  bcastInDim_a1_ab x _ e c
theorem rb_col3 (x : FVec Ideal S3200000x1 .f32) (e : Fin 3200000) (d : Fin 3) :
    broadcastInDim S3200000x3 ![0, 1] bcast_S3200000x1_S3200000x3_0_1 x (ix2 e d) = x (ix2 e (0 : Fin 1)) :=
  bcastInDim_a1_ab x _ e d

variable (x7 x9 : FVec Ideal S32x32 .f32) (x8 x10 : FVec Ideal S32 .f32) (x11 x12 : FVec Ideal S32x1 .f32) (x13 : FVec Ideal S1 .f32)

/-- The message stage as a function of the first layer's pre-activation array. -/
def refMsg (H : FVec Ideal S3200000x32 .f32) : FVec Ideal S3200000x32 .f32 :=
  mulf (maximumf (addf (Host.dotGeneral dot_S3200000x32_S32x32_S3200000x32_1_0_0_1_n_n none (maximumf H (broadcastInDim S3200000x32 ![] bcast_S_S3200000x32 (constant S_ .f32 0x00000000#32))) (x7)) (broadcastInDim S3200000x32 ![0, 1] bcast_S1x32_S3200000x32_0_1 (broadcastInDim S1x32 ![1] bcast_S32_S1x32_1 (x8)))) (broadcastInDim S3200000x32 ![] bcast_S_S3200000x32 (constant S_ .f32 0x00000000#32))) (broadcastInDim S3200000x32 ![0, 1] bcast_S3200000x1_S3200000x32_0_1 (Host.divf (broadcastInDim S3200000x1 ![] bcast_S_S3200000x1 (constant S_ .f32 0x3F800000#32)) (addf (broadcastInDim S3200000x1 ![] bcast_S_S3200000x1 (constant S_ .f32 0x3F800000#32)) (Host.exp (Host.negf (addf (Host.dotGeneral dot_S3200000x32_S32x1_S3200000x1_1_0_0_1_n_n none (maximumf (addf (Host.dotGeneral dot_S3200000x32_S32x32_S3200000x32_1_0_0_1_n_n none (maximumf H (broadcastInDim S3200000x32 ![] bcast_S_S3200000x32 (constant S_ .f32 0x00000000#32))) (x7)) (broadcastInDim S3200000x32 ![0, 1] bcast_S1x32_S3200000x32_0_1 (broadcastInDim S1x32 ![1] bcast_S32_S1x32_1 (x8)))) (broadcastInDim S3200000x32 ![] bcast_S_S3200000x32 (constant S_ .f32 0x00000000#32))) (x12)) (broadcastInDim S3200000x1 ![0, 1] bcast_S1x1_S3200000x1_0_1 (broadcastInDim S1x1 ![1] bcast_S1_S1x1_1 (x13)))))))))

/-- The unclipped update as a function of the difference array and the message array. -/
def refHead (D : FVec Ideal S3200000x3 .f32) (M : FVec Ideal S3200000x32 .f32) : FVec Ideal S3200000x3 .f32 :=
  mulf D (broadcastInDim S3200000x3 ![0, 1] bcast_S3200000x1_S3200000x3_0_1 (Host.dotGeneral dot_S3200000x32_S32x1_S3200000x1_1_0_0_1_n_n none (maximumf (addf (Host.dotGeneral dot_S3200000x32_S32x32_S3200000x32_1_0_0_1_n_n none M (x9)) (broadcastInDim S3200000x32 ![0, 1] bcast_S1x32_S3200000x32_0_1 (broadcastInDim S1x32 ![1] bcast_S32_S1x32_1 (x10)))) (broadcastInDim S3200000x32 ![] bcast_S_S3200000x32 (constant S_ .f32 0x00000000#32))) (x11)))

theorem hdivf {s : Shape} {φ : FTy} (x y : FVec Ideal s φ) (i : s.Idx) : Host.divf x y i = Ideal.div (x i) (y i) := rfl
theorem hexp {s : Shape} {φ : FTy} (x : FVec Ideal s φ) (i : s.Idx) : Host.exp x i = Ideal.exp (x i) := rfl
theorem hnegf {s : Shape} {φ : FTy} (x : FVec Ideal s φ) (i : s.Idx) : Host.negf x i = -(x i) := rfl
theorem const0 : constant (F := Ideal) S_ .f32 0x00000000#32 ix0 = 0 := Ideal.ofBits_zero_f32
theorem const1 : constant (F := Ideal) S_ .f32 0x3F800000#32 ix0 = 1 := Cert.EdgeSpec.ofBits_one

/-- A rectifier against the broadcast zero, at an index. -/
theorem relu32 (A : FVec Ideal S3200000x32 .f32) (i : S3200000x32.Idx) :
    maximumf A (broadcastInDim S3200000x32 ![] bcast_S_S3200000x32 (constant S_ .f32 0x00000000#32)) i = max (A i) 0 := by
  rw [maximumf_apply, rb_scalar32, const0]

/-- A 32-to-32 layer with its bias, at an edge and a column. -/
theorem layer32 (A : FVec Ideal S3200000x32 .f32) (W : FVec Ideal S32x32 .f32) (b : FVec Ideal S32 .f32) (e : Fin 3200000) (c : Fin 32) :
    addf (Host.dotGeneral dot_S3200000x32_S32x32_S3200000x32_1_0_0_1_n_n none A W)
        (broadcastInDim S3200000x32 ![0, 1] bcast_S1x32_S3200000x32_0_1 (broadcastInDim S1x32 ![1] bcast_S32_S1x32_1 b)) (ix2 e c)
      = (∑ k : Fin 32, A (ix2 e k) * W (ix2 k c)) + b (ix1 c) := by
  rw [addf_apply, rdot_32_32, StackMember.dotGeneral_plain_apply, rb_row32]

/-- A 32-to-1 contraction, at an edge. -/
theorem dot1 (A : FVec Ideal S3200000x32 .f32) (W : FVec Ideal S32x1 .f32) (e : Fin 3200000) (u : Fin 1) :
    Host.dotGeneral dot_S3200000x32_S32x1_S3200000x1_1_0_0_1_n_n none A W (ix2 e u) = ∑ k : Fin 32, A (ix2 e k) * W (ix2 k u) := by
  rw [rdot_32_1, StackMember.dotGeneral_plain_apply]

theorem refMsg_apply (H : FVec Ideal S3200000x32 .f32) (e : Fin 3200000) (c : Fin 32) :
    refMsg x7 x8 x12 x13 H (ix2 e c)
      = Cert.EdgeSpec.msgRow (fun k => H (ix2 e k)) x7 (fun k => x8 (ix1 k)) x12 (x13 (ix1 (0 : Fin 1))) c := by
  have h2 : ∀ j : Fin 32, maximumf (addf (Host.dotGeneral dot_S3200000x32_S32x32_S3200000x32_1_0_0_1_n_n none
        (maximumf H (broadcastInDim S3200000x32 ![] bcast_S_S3200000x32 (constant S_ .f32 0x00000000#32))) x7)
        (broadcastInDim S3200000x32 ![0, 1] bcast_S1x32_S3200000x32_0_1 (broadcastInDim S1x32 ![1] bcast_S32_S1x32_1 x8)))
        (broadcastInDim S3200000x32 ![] bcast_S_S3200000x32 (constant S_ .f32 0x00000000#32)) (ix2 e j)
      = max ((∑ k : Fin 32, max (H (ix2 e k)) 0 * x7 (ix2 k j)) + x8 (ix1 j)) 0 := by
    intro j
    rw [relu32, layer32]
    refine congrArg (fun t => max (t + x8 (ix1 j)) 0) (Finset.sum_congr rfl fun k _ => ?_)
    rw [relu32]
  unfold refMsg Cert.EdgeSpec.msgRow
  rw [mulf_apply, h2 c, rb_col32, hdivf, rb_scalar1, const1, addf_apply, rb_scalar1, const1, hexp, hnegf, addf_apply, dot1, rb_row1]
  refine congrArg (fun t => max ((∑ k : Fin 32, max (H (ix2 e k)) 0 * x7 (ix2 k c)) + x8 (ix1 c)) 0 * Ideal.div 1 (1 + Ideal.exp (-(t + x13 (ix1 (0 : Fin 1)))))) (Finset.sum_congr rfl fun j _ => ?_)
  rw [h2 j]

theorem refHead_apply (D : FVec Ideal S3200000x3 .f32) (M : FVec Ideal S3200000x32 .f32) (e : Fin 3200000) (d : Fin 3) :
    refHead x9 x10 x11 D M (ix2 e d)
      = Cert.EdgeSpec.headRow (D (ix2 e d)) (fun j => M (ix2 e j)) x9 (fun k => x10 (ix1 k)) x11 := by
  unfold refHead Cert.EdgeSpec.headRow
  rw [mulf_apply, rb_col3, dot1]
  refine congrArg (fun t => D (ix2 e d) * t) (Finset.sum_congr rfl fun k _ => ?_)
  rw [relu32, layer32]

end Cert.RefStages

end
-- ==== Proof.StageMsg.lean ====
/-
  The second layer, the sigmoid gate and the gated message: from the first layer's pre-activation row to the
  message row.  Both programs compute the specification's row, the kernel from a block's row and its staged
  weights, the reference from the edge's row of the whole arrays.
-/
import proofs.«123867_j936302870591_2_alg».proof.Proof.StageCommon
import proofs.«123867_j936302870591_2_alg».proof.Proof.RefStages

set_option maxRecDepth 16384

noncomputable section

namespace Cert.Stages

open Idealize.ShloMosaic Idealize.ShloMosaic.ValueIdx Cert.Lib.RowOps
open Cert.KernelIdeal Cert.KernelIdeal.Gen

variable (x0 : (⟨Cert.ReferenceIdeal.S100000x3, .f32⟩ : BufTy).Contents (Elt Ideal))
  (x1 : (⟨Cert.ReferenceIdeal.S2x3200000, .i32⟩ : BufTy).Contents (Elt Ideal))
  (x2 : (⟨Cert.ReferenceIdeal.S2x32, .f32⟩ : BufTy).Contents (Elt Ideal))
  (x3 x4 x5 x6 : (⟨Cert.ReferenceIdeal.S32, .f32⟩ : BufTy).Contents (Elt Ideal))
  (x7 : (⟨Cert.ReferenceIdeal.S32x32, .f32⟩ : BufTy).Contents (Elt Ideal))
  (x8 : (⟨Cert.ReferenceIdeal.S32, .f32⟩ : BufTy).Contents (Elt Ideal))
  (x9 : (⟨Cert.ReferenceIdeal.S32x32, .f32⟩ : BufTy).Contents (Elt Ideal))
  (x10 : (⟨Cert.ReferenceIdeal.S32, .f32⟩ : BufTy).Contents (Elt Ideal))
  (x11 x12 : (⟨Cert.ReferenceIdeal.S32x1, .f32⟩ : BufTy).Contents (Elt Ideal))
  (x13 : (⟨Cert.ReferenceIdeal.S1, .f32⟩ : BufTy).Contents (Elt Ideal))

/-- The kernel body's message row is the specification's, of the body's own operands. -/
theorem ker_msg (r : Fin 4000) (v46 : FVec Ideal S4000x32 .f32)
    (X4 : Vec Ideal S32x32 .f32) (X5 : Vec Ideal S1x32 .f32) (X9 : Vec Ideal S32x1 .f32) (X10 : Vec Ideal S1x1 .f32) (c : Fin 32) :
    k0_pay6 v46 (Scalar.ofBits .f32 0x00000000#32) X4 X5 X9 X10 (ix2 r c)
      = Cert.EdgeSpec.msgRow (fun k => v46 (ix2 r k)) X4 (fun k => X5 (ix2 (0 : Fin 1) k)) X9 (X10 (ix2 (0 : Fin 1) (0 : Fin 1))) c := by
  unfold k0_pay6
  simp only [dot_4000_32_32, dot_4000_32_1, dot_4000_2_32, mulf_apply, maximumf_apply, minimumf_apply, addf_apply, subf_apply, broadcast_apply, truncf_apply, matmul_plain_zero_apply, broadcastTo_1b_ab_apply, broadcastTo_a1_ab_apply, shapeCast_self, shapeCast_a_a1_apply, rowSum_apply, logistic_apply, log1p_apply, absf_apply, select_apply, cmpf_apply, constant_apply]
  simp only [Ideal.mulf_def, Ideal.maximumf_def, Ideal.minimumf_def, Ideal.addf_def, Ideal.subf_def, Ideal.hostDivf_def, Ideal.hostUnary_exp_def, Ideal.hostNegf_def, Ideal.negf_def, Ideal.logistic_def, Ideal.ofBits_def, Ideal.hostUnary_sqrt_def, Ideal.hostUnary_rsqrt_def, Ideal.logistic, Ideal.ofBits_zero_f32, Cert.EdgeSpec.ofBits_one]
  rfl

/-- The reference's message row is the specification's, of the reference's operands. -/
theorem ref_msg (e : Fin 3200000) (c : Fin 32) :
    Cert.ReferenceIdeal.Read.val_main_v65 (F := Ideal) x0 x1 x2 x3 x4 x5 x6 x7 x8 x12 x13 (ix2 e c)
      = Cert.EdgeSpec.msgRow (fun k => Cert.ReferenceIdeal.Read.val_main_v47 (F := Ideal) x0 x1 x2 x3 x4 x5 x6 (ix2 e k)) x7 (fun k => x8 (ix1 k)) x12 (x13 (ix1 (0 : Fin 1))) c :=
  Cert.RefStages.refMsg_apply x7 x8 x12 x13 (Cert.ReferenceIdeal.Read.val_main_v47 (F := Ideal) x0 x1 x2 x3 x4 x5 x6) e c

/-- The gated message: from the first layer's pre-activation row to the message row. -/
theorem stage_msg (r : Fin 4000) (e : Fin 3200000) (v46 : FVec Ideal S4000x32 .f32)
    (X4 : Vec Ideal S32x32 .f32) (X5 : Vec Ideal S1x32 .f32) (X9 : Vec Ideal S32x1 .f32) (X10 : Vec Ideal S1x1 .f32)
    (H46 : ∀ c : Fin 32, v46 (ix2 r c) = Cert.ReferenceIdeal.Read.val_main_v47 (F := Ideal) x0 x1 x2 x3 x4 x5 x6 (ix2 e c))
    (H4 : X4 = x7) (H5 : ∀ c : Fin 32, X5 (ix2 (0 : Fin 1) c) = x8 (ix1 c)) (H9 : X9 = x12)
    (H10 : X10 (ix2 (0 : Fin 1) (0 : Fin 1)) = x13 (ix1 (0 : Fin 1))) (c : Fin 32) :
    k0_pay6 v46 (Scalar.ofBits .f32 0x00000000#32) X4 X5 X9 X10 (ix2 r c)
      = Cert.ReferenceIdeal.Read.val_main_v65 (F := Ideal) x0 x1 x2 x3 x4 x5 x6 x7 x8 x12 x13 (ix2 e c) := by
  have e1 : (fun k => v46 (ix2 r k)) = fun k => Cert.ReferenceIdeal.Read.val_main_v47 (F := Ideal) x0 x1 x2 x3 x4 x5 x6 (ix2 e k) := funext H46
  have e2 : (fun k => X5 (ix2 (0 : Fin 1) k)) = fun k => x8 (ix1 k) := funext H5
  rewrite [ker_msg, ref_msg, e1, e2, H4, H9, H10]
  rfl

end Cert.Stages

end
-- ==== Proof.StagePhix.lean ====
/-
  The coordinate head: a third layer and a rectifier on the message, contracted to one number per edge, which
  scales the edge's difference vector.
-/
import proofs.«123867_j936302870591_2_alg».proof.Proof.StageCommon
import proofs.«123867_j936302870591_2_alg».proof.Proof.RefStages

set_option maxRecDepth 16384

noncomputable section

namespace Cert.Stages

open Idealize.ShloMosaic Idealize.ShloMosaic.ValueIdx Cert.Lib.RowOps
open Cert.KernelIdeal Cert.KernelIdeal.Gen

variable (x0 : (⟨Cert.ReferenceIdeal.S100000x3, .f32⟩ : BufTy).Contents (Elt Ideal))
  (x1 : (⟨Cert.ReferenceIdeal.S2x3200000, .i32⟩ : BufTy).Contents (Elt Ideal))
  (x2 : (⟨Cert.ReferenceIdeal.S2x32, .f32⟩ : BufTy).Contents (Elt Ideal))
  (x3 x4 x5 x6 : (⟨Cert.ReferenceIdeal.S32, .f32⟩ : BufTy).Contents (Elt Ideal))
  (x7 : (⟨Cert.ReferenceIdeal.S32x32, .f32⟩ : BufTy).Contents (Elt Ideal))
  (x8 : (⟨Cert.ReferenceIdeal.S32, .f32⟩ : BufTy).Contents (Elt Ideal))
  (x9 : (⟨Cert.ReferenceIdeal.S32x32, .f32⟩ : BufTy).Contents (Elt Ideal))
  (x10 : (⟨Cert.ReferenceIdeal.S32, .f32⟩ : BufTy).Contents (Elt Ideal))
  (x11 x12 : (⟨Cert.ReferenceIdeal.S32x1, .f32⟩ : BufTy).Contents (Elt Ideal))
  (x13 : (⟨Cert.ReferenceIdeal.S1, .f32⟩ : BufTy).Contents (Elt Ideal))

/-- The kernel body's unclipped update is the specification's, of the body's own operands. -/
theorem ker_head (r : Fin 4000) (v4 : FVec Ideal S4000x3 .f32) (v46 : FVec Ideal S4000x32 .f32)
    (X4 : Vec Ideal S32x32 .f32) (X5 : Vec Ideal S1x32 .f32) (X9 : Vec Ideal S32x1 .f32) (X10 : Vec Ideal S1x1 .f32)
    (X6 : Vec Ideal S32x32 .f32) (X7 : Vec Ideal S1x32 .f32) (X8 : Vec Ideal S32x1 .f32) (d : Fin 3) :
    k0_pay7 v4 v46 (Scalar.ofBits .f32 0x00000000#32) X4 X5 X9 X10 X6 X7 X8 (ix2 r d)
      = Cert.EdgeSpec.headRow (v4 (ix2 r d)) (fun j => k0_pay6 v46 (Scalar.ofBits .f32 0x00000000#32) X4 X5 X9 X10 (ix2 r j)) X6
          (fun k => X7 (ix2 (0 : Fin 1) k)) X8 := by
  unfold k0_pay7
  simp only [dot_4000_32_32, dot_4000_32_1, dot_4000_2_32, mulf_apply, maximumf_apply, minimumf_apply, addf_apply, subf_apply, broadcast_apply, truncf_apply, matmul_plain_zero_apply, broadcastTo_1b_ab_apply, broadcastTo_a1_ab_apply, shapeCast_self, shapeCast_a_a1_apply, rowSum_apply, logistic_apply, log1p_apply, absf_apply, select_apply, cmpf_apply, constant_apply]
  simp only [Ideal.mulf_def, Ideal.maximumf_def, Ideal.minimumf_def, Ideal.addf_def, Ideal.subf_def, Ideal.hostDivf_def, Ideal.hostUnary_exp_def, Ideal.hostNegf_def, Ideal.negf_def, Ideal.logistic_def, Ideal.ofBits_def, Ideal.hostUnary_sqrt_def, Ideal.hostUnary_rsqrt_def, Ideal.ofBits_zero_f32, Cert.EdgeSpec.ofBits_one]
  rfl

/-- The reference's unclipped update is the specification's, of the reference's operands. -/
theorem ref_head (e : Fin 3200000) (d : Fin 3) :
    Cert.ReferenceIdeal.Read.val_main_v73 (F := Ideal) x0 x1 x2 x3 x4 x5 x6 x7 x8 x9 x10 x11 x12 x13 (ix2 e d)
      = Cert.EdgeSpec.headRow (Cert.ReferenceIdeal.Read.val_main_v18 (F := Ideal) x0 x1 (ix2 e d)) (fun j => Cert.ReferenceIdeal.Read.val_main_v65 (F := Ideal) x0 x1 x2 x3 x4 x5 x6 x7 x8 x12 x13 (ix2 e j)) x9 (fun k => x10 (ix1 k)) x11 :=
  Cert.RefStages.refHead_apply x9 x10 x11 (Cert.ReferenceIdeal.Read.val_main_v18 (F := Ideal) x0 x1) (Cert.ReferenceIdeal.Read.val_main_v65 (F := Ideal) x0 x1 x2 x3 x4 x5 x6 x7 x8 x12 x13) e d

/-- The coordinate head: from the difference row and the message row to the unclipped update row. -/
theorem stage_phix (r : Fin 4000) (e : Fin 3200000) (v4 : FVec Ideal S4000x3 .f32) (v46 : FVec Ideal S4000x32 .f32)
    (X4 : Vec Ideal S32x32 .f32) (X5 : Vec Ideal S1x32 .f32) (X9 : Vec Ideal S32x1 .f32) (X10 : Vec Ideal S1x1 .f32)
    (X6 : Vec Ideal S32x32 .f32) (X7 : Vec Ideal S1x32 .f32) (X8 : Vec Ideal S32x1 .f32)
    (Hmsg : ∀ c : Fin 32, k0_pay6 v46 (Scalar.ofBits .f32 0x00000000#32) X4 X5 X9 X10 (ix2 r c) = Cert.ReferenceIdeal.Read.val_main_v65 (F := Ideal) x0 x1 x2 x3 x4 x5 x6 x7 x8 x12 x13 (ix2 e c))
    (H4 : ∀ d : Fin 3, v4 (ix2 r d) = Cert.ReferenceIdeal.Read.val_main_v18 (F := Ideal) x0 x1 (ix2 e d))
    (H6 : X6 = x9) (H7 : ∀ c : Fin 32, X7 (ix2 (0 : Fin 1) c) = x10 (ix1 c)) (H8 : X8 = x11) (d : Fin 3) :
    k0_pay7 v4 v46 (Scalar.ofBits .f32 0x00000000#32) X4 X5 X9 X10 X6 X7 X8 (ix2 r d)
      = Cert.ReferenceIdeal.Read.val_main_v73 (F := Ideal) x0 x1 x2 x3 x4 x5 x6 x7 x8 x9 x10 x11 x12 x13 (ix2 e d) := by
  have e1 : (fun j => k0_pay6 v46 (Scalar.ofBits .f32 0x00000000#32) X4 X5 X9 X10 (ix2 r j)) = fun j => Cert.ReferenceIdeal.Read.val_main_v65 (F := Ideal) x0 x1 x2 x3 x4 x5 x6 x7 x8 x12 x13 (ix2 e j) := funext Hmsg
  have e2 : (fun k => X7 (ix2 (0 : Fin 1) k)) = fun k => x10 (ix1 k) := funext H7
  rewrite [ker_head, ref_head, e1, e2, H6, H8, H4]
  rfl

end Cert.Stages

end
-- ==== Proof.StageUpd.lean ====
/-
  The clipped update, and the column of ones beside it that counts edges.
-/
import proofs.«123867_j936302870591_2_alg».proof.Proof.StageCommon

set_option maxRecDepth 16384

noncomputable section

namespace Cert.Stages

open Idealize.ShloMosaic Idealize.ShloMosaic.ValueIdx Cert.Lib.RowOps
open Cert.KernelIdeal Cert.KernelIdeal.Gen

variable (x0 : (⟨Cert.ReferenceIdeal.S100000x3, .f32⟩ : BufTy).Contents (Elt Ideal))
  (x1 : (⟨Cert.ReferenceIdeal.S2x3200000, .i32⟩ : BufTy).Contents (Elt Ideal))
  (x2 : (⟨Cert.ReferenceIdeal.S2x32, .f32⟩ : BufTy).Contents (Elt Ideal))
  (x3 x4 x5 x6 : (⟨Cert.ReferenceIdeal.S32, .f32⟩ : BufTy).Contents (Elt Ideal))
  (x7 : (⟨Cert.ReferenceIdeal.S32x32, .f32⟩ : BufTy).Contents (Elt Ideal))
  (x8 : (⟨Cert.ReferenceIdeal.S32, .f32⟩ : BufTy).Contents (Elt Ideal))
  (x9 : (⟨Cert.ReferenceIdeal.S32x32, .f32⟩ : BufTy).Contents (Elt Ideal))
  (x10 : (⟨Cert.ReferenceIdeal.S32, .f32⟩ : BufTy).Contents (Elt Ideal))
  (x11 x12 : (⟨Cert.ReferenceIdeal.S32x1, .f32⟩ : BufTy).Contents (Elt Ideal))
  (x13 : (⟨Cert.ReferenceIdeal.S1, .f32⟩ : BufTy).Contents (Elt Ideal))

/-- The clipped update and the column of ones. -/
theorem stage_upd (r : Fin 4000) (e : Fin 3200000) (v85 : FVec Ideal S4000x3 .f32)
    (H85 : ∀ d : Fin 3, v85 (ix2 r d) = Cert.ReferenceIdeal.Read.val_main_v73 (F := Ideal) x0 x1 x2 x3 x4 x5 x6 x7 x8 x9 x10 x11 x12 x13 (ix2 e d)) (d : Fin 3) :
    k0_pay1 v85 (Scalar.ofBits .f32 0xC2C80000#32) (ix2 r (⟨d.val, by omega⟩ : Fin 4))
      = Cert.ReferenceIdeal.Read.val_main_v74 (F := Ideal) x0 x1 x2 x3 x4 x5 x6 x7 x8 x9 x10 x11 x12 x13 (ix2 e d) := by
  unfold k0_pay1
  simp only [kconcat4_lt, dot_4000_32_32, dot_4000_32_1, dot_4000_2_32, mulf_apply, maximumf_apply, minimumf_apply, addf_apply, subf_apply, broadcast_apply, truncf_apply, matmul_plain_zero_apply, broadcastTo_1b_ab_apply, broadcastTo_a1_ab_apply, shapeCast_self, shapeCast_a_a1_apply, rowSum_apply, logistic_apply, log1p_apply, absf_apply, select_apply, cmpf_apply, constant_apply]
  simp only [Cert.ReferenceIdeal.Read.val_main_v74_apply, Cert.RefRows.ref_call3_v4, Cert.ReferenceIdeal.Read.val_main_call3_v2_apply, Cert.RefRows.ref_call3_v1]
  simp only [Ideal.mulf_def, Ideal.maximumf_def, Ideal.minimumf_def, Ideal.addf_def, Ideal.subf_def, Ideal.hostDivf_def, Ideal.hostUnary_exp_def, Ideal.hostNegf_def, Ideal.negf_def, Ideal.logistic_def, Ideal.ofBits_def, Ideal.hostUnary_sqrt_def, Ideal.hostUnary_rsqrt_def, H85]

theorem stage_ones (r : Fin 4000) (v85 : FVec Ideal S4000x3 .f32) :
    k0_pay1 v85 (Scalar.ofBits .f32 0xC2C80000#32) (ix2 r (3 : Fin 4)) = Ideal.ofBits .f32 0x3F800000#32 := by
  unfold k0_pay1
  simp only [kconcat4_3, dot_4000_32_32, dot_4000_32_1, dot_4000_2_32, mulf_apply, maximumf_apply, minimumf_apply, addf_apply, subf_apply, broadcast_apply, truncf_apply, matmul_plain_zero_apply, broadcastTo_1b_ab_apply, broadcastTo_a1_ab_apply, shapeCast_self, shapeCast_a_a1_apply, rowSum_apply, logistic_apply, log1p_apply, absf_apply, select_apply, cmpf_apply, constant_apply]
  rfl

end Cert.Stages

end
-- ==== Proof.StageH1.lean ====
/-
  The two squashed features and the first layer.  The kernel multiplies the features into weights that already
  carry the batch normalisation's scale and adds a bias that carries its shift; the reference normalises after
  the product.  Both are the specification's forms of the same row, and the two forms agree on real inputs
  with a nonnegative variance.
-/
import proofs.«123867_j936302870591_2_alg».proof.Proof.StageCommon

set_option maxRecDepth 16384

noncomputable section

namespace Cert.Stages

open Idealize.ShloMosaic Idealize.ShloMosaic.ValueIdx Cert.Lib.RowOps
open Cert.KernelIdeal Cert.KernelIdeal.Gen

variable (x0 : (⟨Cert.ReferenceIdeal.S100000x3, .f32⟩ : BufTy).Contents (Elt Ideal))
  (x1 : (⟨Cert.ReferenceIdeal.S2x3200000, .i32⟩ : BufTy).Contents (Elt Ideal))
  (x2 : (⟨Cert.ReferenceIdeal.S2x32, .f32⟩ : BufTy).Contents (Elt Ideal))
  (x3 x4 x5 x6 : (⟨Cert.ReferenceIdeal.S32, .f32⟩ : BufTy).Contents (Elt Ideal))
  (x7 : (⟨Cert.ReferenceIdeal.S32x32, .f32⟩ : BufTy).Contents (Elt Ideal))
  (x8 : (⟨Cert.ReferenceIdeal.S32, .f32⟩ : BufTy).Contents (Elt Ideal))
  (x9 : (⟨Cert.ReferenceIdeal.S32x32, .f32⟩ : BufTy).Contents (Elt Ideal))
  (x10 : (⟨Cert.ReferenceIdeal.S32, .f32⟩ : BufTy).Contents (Elt Ideal))
  (x11 x12 : (⟨Cert.ReferenceIdeal.S32x1, .f32⟩ : BufTy).Contents (Elt Ideal))
  (x13 : (⟨Cert.ReferenceIdeal.S1, .f32⟩ : BufTy).Contents (Elt Ideal))

/-- The body's sign idiom at one element — `1.0` with the element's sign where the element is not zero, else the element — is the sign. -/
theorem sign_form (a : Ideal .f32) :
    Scalar.select (FloatOps.cmpf (F := Ideal) .ogt (FloatOps.absf a) (FloatOps.ofBits .f32 0x00000000#32))
        (Scalar.select (FloatOps.cmpf (F := Ideal) .olt a (Ideal.ofBits .f32 0x00000000#32)) (Ideal.ofBits .f32 0xBF800000#32)
          (Ideal.ofBits .f32 0x3F800000#32)) a
      = Ideal.sign a :=
  Ideal.jnp_sign_eq_sign_f32 a

/-- The kernel body's first-layer pre-activation: the two features against the staged (folded) weights, plus the staged bias. -/
theorem ker_h1 (r : Fin 4000) (X0 X1 : Vec Ideal S4000x3 .f32) (X2 : Vec Ideal S2x32 .f32) (X3 : Vec Ideal S1x32 .f32) (c : Fin 32) :
    k0_pay5 X0 X1 X2 X3 (ix2 r c)
      = (Cert.EdgeSpec.feat0 (fun k => X0 (ix2 r k)) (fun k => X1 (ix2 r k)) * X2 (ix2 (0 : Fin 2) c)
          + Cert.EdgeSpec.feat1 (fun k => X0 (ix2 r k)) (fun k => X1 (ix2 r k)) * X2 (ix2 (1 : Fin 2) c)) + X3 (ix2 (0 : Fin 1) c) := by
  unfold k0_pay5 k0_pay4 k0_pay2 k0_pay3
  simp only [dot_4000_32_32, dot_4000_32_1, dot_4000_2_32, mulf_apply, maximumf_apply, minimumf_apply, addf_apply, subf_apply, broadcast_apply, truncf_apply, matmul_plain_zero_apply, broadcastTo_1b_ab_apply, broadcastTo_a1_ab_apply, shapeCast_self, shapeCast_a_a1_apply, rowSum_apply, logistic_apply, log1p_apply, absf_apply, select_apply, cmpf_apply, constant_apply]
  simp only [Fin.sum_univ_two, truncf_apply, kconcat2_0, kconcat2_1, rowSum_f32_apply, dot_4000_32_32, dot_4000_32_1, dot_4000_2_32, mulf_apply, maximumf_apply, minimumf_apply, addf_apply, subf_apply, broadcast_apply, truncf_apply, matmul_plain_zero_apply, broadcastTo_1b_ab_apply, broadcastTo_a1_ab_apply, shapeCast_self, shapeCast_a_a1_apply, rowSum_apply, logistic_apply, log1p_apply, absf_apply, select_apply, cmpf_apply, constant_apply]
  have hs : ∀ Y : FVec Ideal S4000x3 .f32,
      multiReduction .add [1] S4000 Y 0x00000000#32 reduces_S4000x3_S4000 (.inl rfl) rfl (ix1 r) = ∑ k : Fin 3, Y (ix2 r k) :=
    fun Y => rowSum_apply Y _ _ _ _ r
  simp only [hs, mulf_apply, subf_apply, sign_form]
  unfold Cert.EdgeSpec.feat0 Cert.EdgeSpec.feat1 Cert.EdgeSpec.psi
  simp only [Ideal.log1p_def, Ideal.absf_def]

/-- The reference's first-layer pre-activation: the normalised form of the specification. -/
theorem ref_h1 (e : Fin 3200000) (c : Fin 32) :
    Cert.ReferenceIdeal.Read.val_main_v47 (F := Ideal) x0 x1 x2 x3 x4 x5 x6 (ix2 e c)
      = Cert.EdgeSpec.h1Normed (Cert.EdgeSpec.feat0 (fun k => Cert.ReferenceIdeal.Read.val_main_v10 (F := Ideal) x0 x1 (ix2 e k)) (fun k => Cert.ReferenceIdeal.Read.val_main_v17 (F := Ideal) x0 x1 (ix2 e k)))
          (Cert.EdgeSpec.feat1 (fun k => Cert.ReferenceIdeal.Read.val_main_v10 (F := Ideal) x0 x1 (ix2 e k)) (fun k => Cert.ReferenceIdeal.Read.val_main_v17 (F := Ideal) x0 x1 (ix2 e k)))
          (x2 (ix2 (0 : Fin 2) c)) (x2 (ix2 (1 : Fin 2) c)) (x3 (ix1 c)) (x4 (ix1 c)) (x5 (ix1 c)) (x6 (ix1 c))
          (Ideal.ofBits .f32 0x3727C5AC#32) := by
  rw [Cert.ReferenceIdeal.Read.val_main_v47_apply, Cert.RefRows.ref_v46, Cert.ReferenceIdeal.Read.val_main_v44_apply, Cert.RefRows.ref_v43, Cert.ReferenceIdeal.Read.val_main_v41_apply, Cert.ReferenceIdeal.Read.val_main_v40_apply, Cert.ReferenceIdeal.Read.val_main_v39_apply, Cert.RefRows.ref_v38, Cert.ReferenceIdeal.Read.val_main_v37_apply, Cert.RefRows.ref_v36, Cert.RefRows.ref_v34]
  rw [Fin.sum_univ_two, Cert.RefRows.ref_v33_0, Cert.RefRows.ref_v33_1, Cert.ReferenceIdeal.Read.val_main_v25_apply, Cert.ReferenceIdeal.Read.val_main_v24_apply, Cert.ReferenceIdeal.Read.val_main_v23_apply, Cert.ReferenceIdeal.Read.val_main_v22_apply, Cert.RefRows.ref_v21, Cert.ReferenceIdeal.Read.val_main_v32_apply, Cert.ReferenceIdeal.Read.val_main_v31_apply, Cert.ReferenceIdeal.Read.val_main_v30_apply, Cert.ReferenceIdeal.Read.val_main_v29_apply, Cert.RefRows.ref_v28]
  simp only [Cert.ReferenceIdeal.Read.val_main_v19_apply, Cert.ReferenceIdeal.Read.val_main_v18_apply, Cert.ReferenceIdeal.Read.val_main_v26_apply]
  unfold Cert.EdgeSpec.h1Normed Cert.EdgeSpec.feat0 Cert.EdgeSpec.feat1 Cert.EdgeSpec.psi
  simp only [Ideal.mulf_def, Ideal.maximumf_def, Ideal.minimumf_def, Ideal.addf_def, Ideal.subf_def, Ideal.hostDivf_def, Ideal.hostUnary_exp_def, Ideal.hostNegf_def, Ideal.negf_def, Ideal.logistic_def, Ideal.ofBits_def, Ideal.hostUnary_sqrt_def, Ideal.hostUnary_rsqrt_def, Ideal.hostUnary_sign_def, Ideal.hostUnary_log1p_def, Ideal.hostAbsf_def, Ideal.log1p_def, Ideal.absf_def, Ideal.cmpf_def, Ideal.ofBits_zero_f32, zero_add]

/-- The first layer: the kernel's folded form is the reference's normalised form, on real inputs with a nonnegative variance. -/
theorem stage_h1 (r : Fin 4000) (e : Fin 3200000) (X0 X1 : Vec Ideal S4000x3 .f32) (X2 : Vec Ideal S2x32 .f32) (X3 : Vec Ideal S1x32 .f32)
    (c : Fin 32)
    (H0 : ∀ d : Fin 3, X0 (ix2 r d) = Cert.ReferenceIdeal.Read.val_main_v10 (F := Ideal) x0 x1 (ix2 e d))
    (H1 : ∀ d : Fin 3, X1 (ix2 r d) = Cert.ReferenceIdeal.Read.val_main_v17 (F := Ideal) x0 x1 (ix2 e d))
    (H2 : ∀ k : Fin 2, X2 (ix2 k c) = x2 (ix2 k c) * (x3 (ix1 c) * Ideal.rsqrt (x6 (ix1 c) + Ideal.ofBits .f32 0x3727C5AC#32)))
    (H3 : X3 (ix2 (0 : Fin 1) c) = x4 (ix1 c) - x5 (ix1 c) * (x3 (ix1 c) * Ideal.rsqrt (x6 (ix1 c) + Ideal.ofBits .f32 0x3727C5AC#32)))
    (R0 : ∀ d : Fin 3, ∃ q : ℝ, Cert.ReferenceIdeal.Read.val_main_v10 (F := Ideal) x0 x1 (ix2 e d) = (q : EReal))
    (R1 : ∀ d : Fin 3, ∃ q : ℝ, Cert.ReferenceIdeal.Read.val_main_v17 (F := Ideal) x0 x1 (ix2 e d) = (q : EReal))
    (RW : ∀ k : Fin 2, ∃ q : ℝ, x2 (ix2 k c) = (q : EReal)) (Rγ : ∃ q : ℝ, x3 (ix1 c) = (q : EReal))
    (Rβ : ∃ q : ℝ, x4 (ix1 c) = (q : EReal)) (Rμ : ∃ q : ℝ, x5 (ix1 c) = (q : EReal))
    (Rv : ∃ q : ℝ, 0 ≤ q ∧ x6 (ix1 c) = (q : EReal)) :
    k0_pay5 X0 X1 X2 X3 (ix2 r c) = Cert.ReferenceIdeal.Read.val_main_v47 (F := Ideal) x0 x1 x2 x3 x4 x5 x6 (ix2 e c) := by
  have e0 : (fun k => X0 (ix2 r k)) = fun k => Cert.ReferenceIdeal.Read.val_main_v10 (F := Ideal) x0 x1 (ix2 e k) := funext H0
  have e1 : (fun k => X1 (ix2 r k)) = fun k => Cert.ReferenceIdeal.Read.val_main_v17 (F := Ideal) x0 x1 (ix2 e k) := funext H1
  rewrite [ker_h1, ref_h1, e0, e1, H2, H2, H3]
  obtain ⟨f0, hf0⟩ := Cert.EdgeSpec.feat0_real _ _ R0 R1
  obtain ⟨f1, hf1⟩ := Cert.EdgeSpec.feat1_real _ _ R0 R1
  obtain ⟨w0, hw0⟩ := RW 0
  obtain ⟨w1, hw1⟩ := RW 1
  obtain ⟨g, hg⟩ := Rγ
  obtain ⟨b, hb⟩ := Rβ
  obtain ⟨mu, hmu⟩ := Rμ
  obtain ⟨v, hv0, hv⟩ := Rv
  rewrite [hf0, hf1, hw0, hw1, hg, hb, hmu, hv]
  exact Cert.EdgeSpec.h1Folded_eq_h1Normed f0 f1 w0 w1 g b mu v hv0

end Cert.Stages

end
-- ==== Proof.KernelBlocks.lean ====
/-
  From blocks to arrays.  Grid point `t` stages rows `4000·t … 4000·t + 3999` of the two gathered arrays and the
  whole of every weight array, and writes back the same rows of the message array and of the update array.  So
  row `r` of what point `t` writes is the per-edge value of edge `4000·t + r`, the blocks tile the arrays, and each
  output array after the run is the reference's array: the message, and the clipped update with a fourth column of
  ones.
-/
import proofs.«123867_j936302870591_2_alg».proof.Proof.Gen.KernelIdeal.Frame
import proofs.«123867_j936302870591_2_alg».proof.Proof.KernelArrays
import proofs.«123867_j936302870591_2_alg».proof.Proof.StageMsg
import proofs.«123867_j936302870591_2_alg».proof.Proof.StagePhix
import proofs.«123867_j936302870591_2_alg».proof.Proof.StageUpd
import proofs.«123867_j936302870591_2_alg».proof.Proof.StageH1
import Idealize.ShloMosaic.Lib.Pipeline.Value

set_option maxRecDepth 16384

noncomputable section

namespace Cert.KernelBlocks

open Idealize.ShloMosaic Idealize.ShloMosaic.TcCoe Idealize.ShloMosaic.ValueIdx Idealize.SL.Sem
open Cert.KernelIdeal Cert.KernelIdeal.Gen Cert.KernelArrays
open Idealize.ShloMosaic.Pipeline (Dat)

variable (m : (ℓ : Loc nD τ sig) → Buf (Elt Ideal) ℓ) (c : Dev nD)

theorem hz : (![0, 0] : Fin 2 → Nat) = fun _ => 0 := funext fun a => by fin_cases a <;> rfl

theorem N800 : cfg0.N = 800 := N_0

/-- The printed index maps, decided over the grid: the row-blocked windows are at block `t`, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The edge that row `r` of grid point `t`'s blocks holds. -/
def edge (t : Fin cfg0.N) (r : Fin 4000) : Fin 3200000 :=
  ⟨t.val * 4000 + r.val, by have h : t.val < 800 := lt_of_lt_of_eq t.isLt N800; have := r.isLt; omega⟩

/-- Window 0's block at point `t` is rows `4000·t …` of its array. -/
theorem emb0 (t : Fin cfg0.N) (r : Fin 4000) (j : Fin 3) :
    ((cfg0.win 0).blk t).view.emb (ix2 r j) = ix2 (edge t r) j := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts t
  funext a; refine Fin.ext ?_
  match a with
  | ⟨0, _⟩ => show win0_0.index t (0 : Fin 2) * 4000 + 1 * r.val = t.val * 4000 + r.val; rw [f0_0]; omega
  | ⟨1, _⟩ => show win0_0.index t (1 : Fin 2) * 3 + 1 * j.val = j.val; rw [f0_1]; omega

/-- Window 1's block at point `t` is rows `4000·t …` of its array. -/
theorem emb1 (t : Fin cfg0.N) (r : Fin 4000) (j : Fin 3) :
    ((cfg0.win 1).blk t).view.emb (ix2 r j) = ix2 (edge t r) j := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts t
  funext a; refine Fin.ext ?_
  match a with
  | ⟨0, _⟩ => show win0_1.index t (0 : Fin 2) * 4000 + 1 * r.val = t.val * 4000 + r.val; rw [f1_0]; omega
  | ⟨1, _⟩ => show win0_1.index t (1 : Fin 2) * 3 + 1 * j.val = j.val; rw [f1_1]; omega

/-- Window 2's block at every point is its whole array. -/
theorem emb2 (t : Fin cfg0.N) (y : S2x32.Idx) : ((cfg0.win 2).blk t).view.emb y = y := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts t
  funext a; refine Fin.ext ?_
  match a with
  | ⟨0, _⟩ => show win0_2.index t (0 : Fin 2) * 2 + 1 * (y 0).val = (y 0).val; rw [f2_0]; omega
  | ⟨1, _⟩ => show win0_2.index t (1 : Fin 2) * 32 + 1 * (y 1).val = (y 1).val; rw [f2_1]; omega

/-- Window 3's block at every point is its whole array. -/
theorem emb3 (t : Fin cfg0.N) (y : S1x32.Idx) : ((cfg0.win 3).blk t).view.emb y = y := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts t
  funext a; refine Fin.ext ?_
  match a with
  | ⟨0, _⟩ => show win0_3.index t (0 : Fin 2) * 1 + 1 * (y 0).val = (y 0).val; rw [f3_0]; omega
  | ⟨1, _⟩ => show win0_3.index t (1 : Fin 2) * 32 + 1 * (y 1).val = (y 1).val; rw [f3_1]; omega

/-- Window 4's block at every point is its whole array. -/
theorem emb4 (t : Fin cfg0.N) (y : S32x32.Idx) : ((cfg0.win 4).blk t).view.emb y = y := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts t
  funext a; refine Fin.ext ?_
  match a with
  | ⟨0, _⟩ => show win0_4.index t (0 : Fin 2) * 32 + 1 * (y 0).val = (y 0).val; rw [f4_0]; omega
  | ⟨1, _⟩ => show win0_4.index t (1 : Fin 2) * 32 + 1 * (y 1).val = (y 1).val; rw [f4_1]; omega

/-- Window 5's block at every point is its whole array. -/
theorem emb5 (t : Fin cfg0.N) (y : S1x32.Idx) : ((cfg0.win 5).blk t).view.emb y = y := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts t
  funext a; refine Fin.ext ?_
  match a with
  | ⟨0, _⟩ => show win0_5.index t (0 : Fin 2) * 1 + 1 * (y 0).val = (y 0).val; rw [f5_0]; omega
  | ⟨1, _⟩ => show win0_5.index t (1 : Fin 2) * 32 + 1 * (y 1).val = (y 1).val; rw [f5_1]; omega

/-- Window 6's block at every point is its whole array. -/
theorem emb6 (t : Fin cfg0.N) (y : S32x32.Idx) : ((cfg0.win 6).blk t).view.emb y = y := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts t
  funext a; refine Fin.ext ?_
  match a with
  | ⟨0, _⟩ => show win0_6.index t (0 : Fin 2) * 32 + 1 * (y 0).val = (y 0).val; rw [f6_0]; omega
  | ⟨1, _⟩ => show win0_6.index t (1 : Fin 2) * 32 + 1 * (y 1).val = (y 1).val; rw [f6_1]; omega

/-- Window 7's block at every point is its whole array. -/
theorem emb7 (t : Fin cfg0.N) (y : S1x32.Idx) : ((cfg0.win 7).blk t).view.emb y = y := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts t
  funext a; refine Fin.ext ?_
  match a with
  | ⟨0, _⟩ => show win0_7.index t (0 : Fin 2) * 1 + 1 * (y 0).val = (y 0).val; rw [f7_0]; omega
  | ⟨1, _⟩ => show win0_7.index t (1 : Fin 2) * 32 + 1 * (y 1).val = (y 1).val; rw [f7_1]; omega

/-- Window 8's block at every point is its whole array. -/
theorem emb8 (t : Fin cfg0.N) (y : S32x1.Idx) : ((cfg0.win 8).blk t).view.emb y = y := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts t
  funext a; refine Fin.ext ?_
  match a with
  | ⟨0, _⟩ => show win0_8.index t (0 : Fin 2) * 32 + 1 * (y 0).val = (y 0).val; rw [f8_0]; omega
  | ⟨1, _⟩ => show win0_8.index t (1 : Fin 2) * 1 + 1 * (y 1).val = (y 1).val; rw [f8_1]; omega

/-- Window 9's block at every point is its whole array. -/
theorem emb9 (t : Fin cfg0.N) (y : S32x1.Idx) : ((cfg0.win 9).blk t).view.emb y = y := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts t
  funext a; refine Fin.ext ?_
  match a with
  | ⟨0, _⟩ => show win0_9.index t (0 : Fin 2) * 32 + 1 * (y 0).val = (y 0).val; rw [f9_0]; omega
  | ⟨1, _⟩ => show win0_9.index t (1 : Fin 2) * 1 + 1 * (y 1).val = (y 1).val; rw [f9_1]; omega

/-- Window 10's block at every point is its whole array. -/
theorem emb10 (t : Fin cfg0.N) (y : S1x1.Idx) : ((cfg0.win 10).blk t).view.emb y = y := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts t
  funext a; refine Fin.ext ?_
  match a with
  | ⟨0, _⟩ => show win0_10.index t (0 : Fin 2) * 1 + 1 * (y 0).val = (y 0).val; rw [f10_0]; omega
  | ⟨1, _⟩ => show win0_10.index t (1 : Fin 2) * 1 + 1 * (y 1).val = (y 1).val; rw [f10_1]; omega

/-- Window 11's block at point `t` is rows `4000·t …` of its array. -/
theorem emb11 (t : Fin cfg0.N) (r : Fin 4000) (j : Fin 32) :
    ((cfg0.win 11).blk t).view.emb (ix2 r j) = ix2 (edge t r) j := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts t
  funext a; refine Fin.ext ?_
  match a with
  | ⟨0, _⟩ => show win0_11.index t (0 : Fin 2) * 4000 + 1 * r.val = t.val * 4000 + r.val; rw [f11_0]; omega
  | ⟨1, _⟩ => show win0_11.index t (1 : Fin 2) * 32 + 1 * j.val = j.val; rw [f11_1]; omega

/-- Window 12's block at point `t` is rows `4000·t …` of its array. -/
theorem emb12 (t : Fin cfg0.N) (r : Fin 4000) (j : Fin 4) :
    ((cfg0.win 12).blk t).view.emb (ix2 r j) = ix2 (edge t r) j := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts t
  funext a; refine Fin.ext ?_
  match a with
  | ⟨0, _⟩ => show win0_12.index t (0 : Fin 2) * 4000 + 1 * r.val = t.val * 4000 + r.val; rw [f12_0]; omega
  | ⟨1, _⟩ => show win0_12.index t (1 : Fin 2) * 4 + 1 * j.val = j.val; rw [f12_1]; omega

theorem iblk0_apply (t : Fin cfg0.N) (r : Fin 4000) (j : Fin 3) :
    iblk m c 0 t (ix2 r j) = V m c main_v10 (ix2 (edge t r) j) := by
  show V m c main_v10 (((cfg0.win 0).blk t).view.emb (ix2 r j)) = _
  rw [emb0]

theorem iblk1_apply (t : Fin cfg0.N) (r : Fin 4000) (j : Fin 3) :
    iblk m c 1 t (ix2 r j) = V m c main_v17 (ix2 (edge t r) j) := by
  show V m c main_v17 (((cfg0.win 1).blk t).view.emb (ix2 r j)) = _
  rw [emb1]

theorem iblk2_apply (t : Fin cfg0.N) (y : S2x32.Idx) : iblk m c 2 t y = V m c main_v24 y := by
  show V m c main_v24 (((cfg0.win 2).blk t).view.emb y) = _
  rw [emb2]

theorem iblk3_apply (t : Fin cfg0.N) (y : S1x32.Idx) : iblk m c 3 t y = V m c main_v27 y := by
  show V m c main_v27 (((cfg0.win 3).blk t).view.emb y) = _
  rw [emb3]

theorem iblk4_apply (t : Fin cfg0.N) (y : S32x32.Idx) : iblk m c 4 t y = V m c main_arg7 y := by
  show V m c main_arg7 (((cfg0.win 4).blk t).view.emb y) = _
  rw [emb4]

theorem iblk5_apply (t : Fin cfg0.N) (y : S1x32.Idx) : iblk m c 5 t y = V m c main_v28 y := by
  show V m c main_v28 (((cfg0.win 5).blk t).view.emb y) = _
  rw [emb5]

theorem iblk6_apply (t : Fin cfg0.N) (y : S32x32.Idx) : iblk m c 6 t y = V m c main_arg9 y := by
  show V m c main_arg9 (((cfg0.win 6).blk t).view.emb y) = _
  rw [emb6]

theorem iblk7_apply (t : Fin cfg0.N) (y : S1x32.Idx) : iblk m c 7 t y = V m c main_v29 y := by
  show V m c main_v29 (((cfg0.win 7).blk t).view.emb y) = _
  rw [emb7]

theorem iblk8_apply (t : Fin cfg0.N) (y : S32x1.Idx) : iblk m c 8 t y = V m c main_arg11 y := by
  show V m c main_arg11 (((cfg0.win 8).blk t).view.emb y) = _
  rw [emb8]

theorem iblk9_apply (t : Fin cfg0.N) (y : S32x1.Idx) : iblk m c 9 t y = V m c main_arg12 y := by
  show V m c main_arg12 (((cfg0.win 9).blk t).view.emb y) = _
  rw [emb9]

theorem iblk10_apply (t : Fin cfg0.N) (y : S1x1.Idx) : iblk m c 10 t y = V m c main_v30 y := by
  show V m c main_v30 (((cfg0.win 10).blk t).view.emb y) = _
  rw [emb10]

/-! ## What the reference computes of the kernel's arguments -/

/-- The reference's message array. -/
def G11 : Buf (Elt Ideal) ((cfg0.win 11).arr.view.loc (c.tc : Thread nD τ)) := Cert.ReferenceIdeal.Read.val_main_v65 (F := Ideal) (a0 m c) (a1 m c) (a2 m c) (a3 m c) (a4 m c) (a5 m c) (a6 m c) (a7 m c) (a8 m c) (a12 m c) (a13 m c)

/-- The reference's clipped update with a fourth column of ones. -/
def G12 : Buf (Elt Ideal) ((cfg0.win 12).arr.view.loc (c.tc : Thread nD τ)) := fun (i : S3200000x4.Idx) =>
  if h : (i 1).val < 3 then Cert.ReferenceIdeal.Read.val_main_v74 (F := Ideal) (a0 m c) (a1 m c) (a2 m c) (a3 m c) (a4 m c) (a5 m c) (a6 m c) (a7 m c) (a8 m c) (a9 m c) (a10 m c) (a11 m c) (a12 m c) (a13 m c) (ix2 (i 0) (⟨(i 1).val, h⟩ : Fin 3)) else Ideal.ofBits .f32 0x3F800000#32

/-! ## One row of one block -/

/-- The body's difference of the two staged blocks, at an index. -/
theorem ker_diff (X0 X1 : Vec Ideal S4000x3 .f32) (r : Fin 4000) (d : Fin 3) :
    k0_pay4 X0 X1 (ix2 r d) = ((X0 (ix2 r d) : EReal) - (X1 (ix2 r d) : EReal)) := by
  unfold k0_pay4 k0_pay2 k0_pay3
  simp only [subf_apply, Idealize.ShloMosaic.shapeCast_self]

section Rows
variable (hx : ∀ i, ∃ q : ℝ, a0 m c i = (q : EReal)) (hW : ∀ i, ∃ q : ℝ, a2 m c i = (q : EReal))
  (hγ : ∀ i, ∃ q : ℝ, a3 m c i = (q : EReal)) (hβ : ∀ i, ∃ q : ℝ, a4 m c i = (q : EReal))
  (hμ : ∀ i, ∃ q : ℝ, a5 m c i = (q : EReal)) (hv : ∀ i, ∃ q : ℝ, 0 ≤ q ∧ a6 m c i = (q : EReal))
include hx hW hγ hβ hμ hv

/-- The first layer's pre-activation at row `r` of point `t` is the reference's at edge `4000·t + r`. -/
theorem row_h1 (t : Fin cfg0.N) (r : Fin 4000) (j : Fin 32) :
    (k0_pay5 (iblk m c 0 t) (iblk m c 1 t) (iblk m c 2 t) (iblk m c 3 t)) (ix2 r j) = Cert.ReferenceIdeal.Read.val_main_v47 (F := Ideal) (a0 m c) (a1 m c) (a2 m c) (a3 m c) (a4 m c) (a5 m c) (a6 m c) (ix2 (edge t r) j) :=
  Cert.Stages.stage_h1 (a0 m c) (a1 m c) (a2 m c) (a3 m c) (a4 m c) (a5 m c) (a6 m c) r (edge t r) (iblk m c 0 t) (iblk m c 1 t) (iblk m c 2 t) (iblk m c 3 t) j
    (fun d => (iblk0_apply m c t r d).trans (congrFun (V_v10 m c) _))
    (fun d => (iblk1_apply m c t r d).trans (congrFun (V_v17 m c) _))
    (fun k => (iblk2_apply m c t _).trans (V_v24_apply m c k j))
    ((iblk3_apply m c t _).trans (V_v27_apply m c j))
    (fun d => by unfold Cert.ReferenceIdeal.Read.val_main_v10 Host.gather; exact hx _)
    (fun d => by unfold Cert.ReferenceIdeal.Read.val_main_v17 Host.gather; exact hx _)
    (fun k => hW _) (hγ _) (hβ _) (hμ _) (hv _)

/-- The message at row `r` of point `t` is the reference's at edge `4000·t + r`. -/
theorem row_msg (t : Fin cfg0.N) (r : Fin 4000) (j : Fin 32) :
    (k0_pay6 (k0_pay5 (iblk m c 0 t) (iblk m c 1 t) (iblk m c 2 t) (iblk m c 3 t)) (Scalar.ofBits .f32 0x00000000#32) (iblk m c 4 t) (iblk m c 5 t) (iblk m c 9 t) (iblk m c 10 t)) (ix2 r j) = Cert.ReferenceIdeal.Read.val_main_v65 (F := Ideal) (a0 m c) (a1 m c) (a2 m c) (a3 m c) (a4 m c) (a5 m c) (a6 m c) (a7 m c) (a8 m c) (a12 m c) (a13 m c) (ix2 (edge t r) j) :=
  Cert.Stages.stage_msg (a0 m c) (a1 m c) (a2 m c) (a3 m c) (a4 m c) (a5 m c) (a6 m c) (a7 m c) (a8 m c) (a12 m c) (a13 m c) r (edge t r) (k0_pay5 (iblk m c 0 t) (iblk m c 1 t) (iblk m c 2 t) (iblk m c 3 t)) (iblk m c 4 t) (iblk m c 5 t) (iblk m c 9 t) (iblk m c 10 t)
    (fun j' => row_h1 m c hx hW hγ hβ hμ hv t r j')
    (funext fun y => (iblk4_apply m c t y).trans (congrFun (V_main_arg7 m c) y))
    (fun j' => (iblk5_apply m c t _).trans (V_v28_apply m c j'))
    (funext fun y => (iblk9_apply m c t y).trans (congrFun (V_main_arg12 m c) y))
    ((iblk10_apply m c t _).trans (V_v30_apply m c)) j

/-- The difference of the two end points at row `r` of point `t`. -/
theorem row_diff (t : Fin cfg0.N) (r : Fin 4000) (d : Fin 3) :
    k0_pay4 (iblk m c 0 t) (iblk m c 1 t) (ix2 r d) = Cert.ReferenceIdeal.Read.val_main_v18 (F := Ideal) (a0 m c) (a1 m c) (ix2 (edge t r) d) := by
  rewrite [ker_diff, iblk0_apply, iblk1_apply, V_v10, V_v17, Cert.ReferenceIdeal.Read.val_main_v18_apply, Ideal.subf_def]
  rfl

/-- The clipped update at row `r` of point `t`. -/
theorem row_upd (t : Fin cfg0.N) (r : Fin 4000) (d : Fin 3) :
    (k0_pay1 (k0_pay7 (k0_pay4 (iblk m c 0 t) (iblk m c 1 t)) (k0_pay5 (iblk m c 0 t) (iblk m c 1 t) (iblk m c 2 t) (iblk m c 3 t)) (Scalar.ofBits .f32 0x00000000#32) (iblk m c 4 t) (iblk m c 5 t) (iblk m c 9 t) (iblk m c 10 t) (iblk m c 6 t) (iblk m c 7 t) (iblk m c 8 t)) (Scalar.ofBits .f32 0xC2C80000#32)) (ix2 r (⟨d.val, by omega⟩ : Fin 4)) = Cert.ReferenceIdeal.Read.val_main_v74 (F := Ideal) (a0 m c) (a1 m c) (a2 m c) (a3 m c) (a4 m c) (a5 m c) (a6 m c) (a7 m c) (a8 m c) (a9 m c) (a10 m c) (a11 m c) (a12 m c) (a13 m c) (ix2 (edge t r) d) :=
  Cert.Stages.stage_upd (a0 m c) (a1 m c) (a2 m c) (a3 m c) (a4 m c) (a5 m c) (a6 m c) (a7 m c) (a8 m c) (a9 m c) (a10 m c) (a11 m c) (a12 m c) (a13 m c) r (edge t r) (k0_pay7 (k0_pay4 (iblk m c 0 t) (iblk m c 1 t)) (k0_pay5 (iblk m c 0 t) (iblk m c 1 t) (iblk m c 2 t) (iblk m c 3 t)) (Scalar.ofBits .f32 0x00000000#32) (iblk m c 4 t) (iblk m c 5 t) (iblk m c 9 t) (iblk m c 10 t) (iblk m c 6 t) (iblk m c 7 t) (iblk m c 8 t))
    (fun d' => Cert.Stages.stage_phix (a0 m c) (a1 m c) (a2 m c) (a3 m c) (a4 m c) (a5 m c) (a6 m c) (a7 m c) (a8 m c) (a9 m c) (a10 m c) (a11 m c) (a12 m c) (a13 m c) r (edge t r) (k0_pay4 (iblk m c 0 t) (iblk m c 1 t)) (k0_pay5 (iblk m c 0 t) (iblk m c 1 t) (iblk m c 2 t) (iblk m c 3 t)) (iblk m c 4 t) (iblk m c 5 t) (iblk m c 9 t) (iblk m c 10 t) (iblk m c 6 t) (iblk m c 7 t) (iblk m c 8 t)
      (fun j' => row_msg m c hx hW hγ hβ hμ hv t r j')
      (fun d'' => row_diff m c hx hW hγ hβ hμ hv t r d'')
      (funext fun y => (iblk6_apply m c t y).trans (congrFun (V_main_arg9 m c) y))
      (fun j' => (iblk7_apply m c t _).trans (V_v29_apply m c j'))
      (funext fun y => (iblk8_apply m c t y).trans (congrFun (V_main_arg11 m c) y)) d') d

end Rows

/-! ## What a point writes back -/

/-- For window 11: a block whose row `r` is row `4000·t + r` of an array `G`, cut and written back at point `t`, is block `t` of `G`. -/
theorem flushed_rows11 (t : Fin cfg0.N) (P : FVec Ideal S4000x32 .f32)
    (G : Buf (Elt Ideal) ((cfg0.win 11).arr.view.loc (c.tc : Thread nD τ)))
    (h : ∀ (r : Fin 4000) (j : Fin 32), P (ix2 r j) = G (ix2 (edge t r) j)) :
    (cfg0.win 11).cut (grid0.coords t) P = ((cfg0.win 11).blk t).view.read (Elt Ideal) G := by
  funext y
  have hL : (cfg0.win 11).cut (grid0.coords t) P y = P ((cfg0.win 11).xinj (grid0.coords t) y) := rfl
  have hR : ((cfg0.win 11).blk t).view.read (Elt Ideal) G y = G (((cfg0.win 11).blk t).view.emb y) := rfl
  have hr : (y 0).val < 4000 := ((cfg0.win 11).xinj (grid0.coords t) y 0).isLt
  have hj : (y 1).val < 32 := ((cfg0.win 11).xinj (grid0.coords t) y 1).isLt
  have hxy : (cfg0.win 11).xinj (grid0.coords t) y = ix2 (⟨(y 0).val, hr⟩ : Fin 4000) (⟨(y 1).val, hj⟩ : Fin 32) := by
    funext a; refine Fin.ext ?_
    match a with
    | ⟨0, _⟩ => rfl
    | ⟨1, _⟩ => rfl
  rw [hL, hR, hxy, h]
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts t
  refine congrArg G (funext fun a => Fin.ext ?_)
  match a with
  | ⟨0, _⟩ => show t.val * 4000 + (y 0).val = win0_11.index t (0 : Fin 2) * 4000 + 1 * (y 0).val; rw [f11_0]; omega
  | ⟨1, _⟩ => show (y 1).val = win0_11.index t (1 : Fin 2) * 32 + 1 * (y 1).val; rw [f11_1]; omega

/-- For window 12: a block whose row `r` is row `4000·t + r` of an array `G`, cut and written back at point `t`, is block `t` of `G`. -/
theorem flushed_rows12 (t : Fin cfg0.N) (P : FVec Ideal S4000x4 .f32)
    (G : Buf (Elt Ideal) ((cfg0.win 12).arr.view.loc (c.tc : Thread nD τ)))
    (h : ∀ (r : Fin 4000) (j : Fin 4), P (ix2 r j) = G (ix2 (edge t r) j)) :
    (cfg0.win 12).cut (grid0.coords t) P = ((cfg0.win 12).blk t).view.read (Elt Ideal) G := by
  funext y
  have hL : (cfg0.win 12).cut (grid0.coords t) P y = P ((cfg0.win 12).xinj (grid0.coords t) y) := rfl
  have hR : ((cfg0.win 12).blk t).view.read (Elt Ideal) G y = G (((cfg0.win 12).blk t).view.emb y) := rfl
  have hr : (y 0).val < 4000 := ((cfg0.win 12).xinj (grid0.coords t) y 0).isLt
  have hj : (y 1).val < 4 := ((cfg0.win 12).xinj (grid0.coords t) y 1).isLt
  have hxy : (cfg0.win 12).xinj (grid0.coords t) y = ix2 (⟨(y 0).val, hr⟩ : Fin 4000) (⟨(y 1).val, hj⟩ : Fin 4) := by
    funext a; refine Fin.ext ?_
    match a with
    | ⟨0, _⟩ => rfl
    | ⟨1, _⟩ => rfl
  rw [hL, hR, hxy, h]
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts t
  refine congrArg G (funext fun a => Fin.ext ?_)
  match a with
  | ⟨0, _⟩ => show t.val * 4000 + (y 0).val = win0_12.index t (0 : Fin 2) * 4000 + 1 * (y 0).val; rw [f12_0]; omega
  | ⟨1, _⟩ => show (y 1).val = win0_12.index t (1 : Fin 2) * 4 + 1 * (y 1).val; rw [f12_1]; omega

section Final
variable (hx : ∀ i, ∃ q : ℝ, a0 m c i = (q : EReal)) (hW : ∀ i, ∃ q : ℝ, a2 m c i = (q : EReal))
  (hγ : ∀ i, ∃ q : ℝ, a3 m c i = (q : EReal)) (hβ : ∀ i, ∃ q : ℝ, a4 m c i = (q : EReal))
  (hμ : ∀ i, ∃ q : ℝ, a5 m c i = (q : EReal)) (hv : ∀ i, ∃ q : ℝ, 0 ≤ q ∧ a6 m c i = (q : EReal))
include hx hW hγ hβ hμ hv

/-- Point `t` writes back block `t` of the reference's message array. -/
theorem flushed11_eq (t : Fin cfg0.N) :
    (dats m 0 c).flushed 11 t = ((cfg0.win 11).blk t).view.read (Elt Ideal) (G11 m c) := by
  show (cfg0.win 11).cut (grid0.coords t) ((dats m 0 c).after 11 t) = _
  rw [after0_11]
  unfold out0_11
  rw [View.canon_unit_zero hz]
  simp only [View.ld_unit_zero (S := S4000x3) hz, View.ld_unit_zero (S := S2x32) hz, View.ld_unit_zero (S := S1x32) hz, View.ld_unit_zero (S := S32x32) hz, View.ld_unit_zero (S := S32x1) hz, View.ld_unit_zero (S := S1x1) hz]
  exact flushed_rows11 c t _ (G11 m c) (fun r j => row_msg m c hx hW hγ hβ hμ hv t r j)

/-- The four-column array's row of an edge: the clipped update, then a one. -/
theorem row_ext (t : Fin cfg0.N) (r : Fin 4000) (j : Fin 4) :
    (k0_pay1 (k0_pay7 (k0_pay4 (iblk m c 0 t) (iblk m c 1 t)) (k0_pay5 (iblk m c 0 t) (iblk m c 1 t) (iblk m c 2 t) (iblk m c 3 t)) (Scalar.ofBits .f32 0x00000000#32) (iblk m c 4 t) (iblk m c 5 t) (iblk m c 9 t) (iblk m c 10 t) (iblk m c 6 t) (iblk m c 7 t) (iblk m c 8 t)) (Scalar.ofBits .f32 0xC2C80000#32)) (ix2 r j) = G12 m c (ix2 (edge t r) j) := by
  unfold G12
  by_cases h : j.val < 3
  · rw [dif_pos (show ((ix2 (edge t r) j : S3200000x4.Idx) 1).val < 3 from h)]
    exact row_upd m c hx hW hγ hβ hμ hv t r ⟨j.val, h⟩
  · rw [dif_neg (show ¬ ((ix2 (edge t r) j : S3200000x4.Idx) 1).val < 3 from h)]
    have hj : j = (3 : Fin 4) := Fin.ext (by have := j.isLt; show j.val = 3; omega)
    subst hj
    exact Cert.Stages.stage_ones r _

/-- Point `t` writes back block `t` of the reference's clipped update with its column of ones. -/
theorem flushed12_eq (t : Fin cfg0.N) :
    (dats m 0 c).flushed 12 t = ((cfg0.win 12).blk t).view.read (Elt Ideal) (G12 m c) := by
  show (cfg0.win 12).cut (grid0.coords t) ((dats m 0 c).after 12 t) = _
  rw [after0_12]
  unfold out0_12
  rw [View.canon_unit_zero hz]
  simp only [View.ld_unit_zero (S := S4000x3) hz, View.ld_unit_zero (S := S2x32) hz, View.ld_unit_zero (S := S1x32) hz, View.ld_unit_zero (S := S32x32) hz, View.ld_unit_zero (S := S32x1) hz, View.ld_unit_zero (S := S1x1) hz]
  exact flushed_rows12 c t _ (G12 m c) (fun r j => row_ext m c hx hW hγ hβ hμ hv t r j)

end Final

/-! ## The blocks tile the arrays -/

/-- An index of window 11's array is in point `t`'s block iff each coordinate is in the block's range. -/
theorem mem_blk11 (t : Fin cfg0.N) (i : S3200000x32.Idx) :
    i ∈ ((cfg0.win 11).blk t).view.set ↔ ∀ a : Fin 2, win0_11.index t a * S4000x32.size a ≤ (i a).val ∧ (i a).val < win0_11.index t a * S4000x32.size a + S4000x32.size a := by
  show i ∈ ((View.whole main_v31_0).slice (win0_11.rect t)).set ↔ _
  rw [View.set_slice_whole, Rect.mem_set_unit]
  exact Iff.rfl

/-- Every row of window 11's array is in the block of the point `row / 4000`. -/
theorem cover11 (i : S3200000x32.Idx) : ∃ t : Fin cfg0.N, (cfg0.win 11).flush t = true ∧ i ∈ ((cfg0.win 11).blk t).view.set := by
  have hi0 : (i 0).val < 3200000 := (i 0).isLt
  have hi1 : (i 1).val < 32 := (i 1).isLt
  have hN : (i 0).val / 4000 < cfg0.N := by rw [N800]; omega
  refine ⟨⟨(i 0).val / 4000, hN⟩, flush0_11 _, ?_⟩
  rw [mem_blk11]
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts ⟨(i 0).val / 4000, hN⟩
  intro a
  match a with
  | ⟨0, _⟩ =>
    show win0_11.index ⟨(i 0).val / 4000, hN⟩ (0 : Fin 2) * 4000 ≤ (i 0).val ∧ (i 0).val < win0_11.index ⟨(i 0).val / 4000, hN⟩ (0 : Fin 2) * 4000 + 4000
    rw [f11_0]
    show (i 0).val / 4000 * 4000 ≤ (i 0).val ∧ (i 0).val < (i 0).val / 4000 * 4000 + 4000
    omega
  | ⟨1, _⟩ =>
    show win0_11.index ⟨(i 0).val / 4000, hN⟩ (1 : Fin 2) * 32 ≤ (i 1).val ∧ (i 1).val < win0_11.index ⟨(i 0).val / 4000, hN⟩ (1 : Fin 2) * 32 + 32
    rw [f11_1]
    omega

/-- An index of window 12's array is in point `t`'s block iff each coordinate is in the block's range. -/
theorem mem_blk12 (t : Fin cfg0.N) (i : S3200000x4.Idx) :
    i ∈ ((cfg0.win 12).blk t).view.set ↔ ∀ a : Fin 2, win0_12.index t a * S4000x4.size a ≤ (i a).val ∧ (i a).val < win0_12.index t a * S4000x4.size a + S4000x4.size a := by
  show i ∈ ((View.whole main_v31_1).slice (win0_12.rect t)).set ↔ _
  rw [View.set_slice_whole, Rect.mem_set_unit]
  exact Iff.rfl

/-- Every row of window 12's array is in the block of the point `row / 4000`. -/
theorem cover12 (i : S3200000x4.Idx) : ∃ t : Fin cfg0.N, (cfg0.win 12).flush t = true ∧ i ∈ ((cfg0.win 12).blk t).view.set := by
  have hi0 : (i 0).val < 3200000 := (i 0).isLt
  have hi1 : (i 1).val < 4 := (i 1).isLt
  have hN : (i 0).val / 4000 < cfg0.N := by rw [N800]; omega
  refine ⟨⟨(i 0).val / 4000, hN⟩, flush0_12 _, ?_⟩
  rw [mem_blk12]
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1⟩ := idx_facts ⟨(i 0).val / 4000, hN⟩
  intro a
  match a with
  | ⟨0, _⟩ =>
    show win0_12.index ⟨(i 0).val / 4000, hN⟩ (0 : Fin 2) * 4000 ≤ (i 0).val ∧ (i 0).val < win0_12.index ⟨(i 0).val / 4000, hN⟩ (0 : Fin 2) * 4000 + 4000
    rw [f12_0]
    show (i 0).val / 4000 * 4000 ≤ (i 0).val ∧ (i 0).val < (i 0).val / 4000 * 4000 + 4000
    omega
  | ⟨1, _⟩ =>
    show win0_12.index ⟨(i 0).val / 4000, hN⟩ (1 : Fin 2) * 4 ≤ (i 1).val ∧ (i 1).val < win0_12.index ⟨(i 0).val / 4000, hN⟩ (1 : Fin 2) * 4 + 4
    rw [f12_1]
    omega

section Arrays
variable (hx : ∀ i, ∃ q : ℝ, a0 m c i = (q : EReal)) (hW : ∀ i, ∃ q : ℝ, a2 m c i = (q : EReal))
  (hγ : ∀ i, ∃ q : ℝ, a3 m c i = (q : EReal)) (hβ : ∀ i, ∃ q : ℝ, a4 m c i = (q : EReal))
  (hμ : ∀ i, ∃ q : ℝ, a5 m c i = (q : EReal)) (hv : ∀ i, ∃ q : ℝ, 0 ≤ q ∧ a6 m c i = (q : EReal))
include hx hW hγ hβ hμ hv

/-- The message array after the run is the reference's. -/
theorem final11 : (dats m 0 c).arrAt 11 cfg0.N = G11 m c :=
  (dats m 0 c).arrAt_eq_of_cover 11 (G11 m c) (fun t _ => flushed11_eq m c hx hW hγ hβ hμ hv t) cover11

/-- The four-column array after the run is the reference's clipped update with a column of ones. -/
theorem final12 : (dats m 0 c).arrAt 12 cfg0.N = G12 m c :=
  (dats m 0 c).arrAt_eq_of_cover 12 (G12 m c) (fun t _ => flushed12_eq m c hx hW hγ hβ hμ hv t) cover12

end Arrays

end Cert.KernelBlocks

end
-- ==== Proof.LibSegmentSum.lean ====
/-
  Segment sums read at an index.

  A float scatter with an `add` body whose scatter indices are one column of row numbers (what
  `jax.ops.segment_sum` lowers to) adds every update row to the operand row its index names, and
  drops a row whose index is outside the operand.  Read at the extended reals, the element at
  row `n`, column `c` of the result is the operand's element there plus the sum, over all update
  rows `e`, of the update's element `(e, c)` when row `e`'s index is `n` and of zero otherwise.
  The same holds for a rank-one operand (one number per row).
-/
import Idealize.ShloMosaic.PureOps.Ideal
import Idealize.ShloMosaic.PureOps.Ideal.Laws
import Idealize.ShloMosaic.Lib.ValueIdx

noncomputable section

namespace Cert.Lib.SegmentSum

open Idealize.ShloMosaic Idealize.ShloMosaic.ValueIdx

/-- The dimension numbers of a row scatter: operand `[N, C]`, one index per update row (`[E, 1]`), updates `[E, C]`;
    the update's second axis is the window, the operand's first axis is the scattered one. -/
abbrev rowDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- The index an update row reads its row number at: `(e, 0)`. -/
theorem rows_siIdx (j : (⟨2, ![E, C]⟩ : Shape).Idx) :
    (rowDims N E C wf).siIdx j ⟨List.idxOf (0 : Fin 2) (rowDims N E C wf).scatterDimsToOperandDims,
      List.idxOf_lt_length_iff.2 (List.mem_singleton.mpr rfl)⟩ = ix2 (j 0) ⟨0, Nat.one_pos⟩ := by
  funext b; refine Fin.ext ?_
  match b with
  | ⟨0, _⟩ => rfl
  | ⟨1, _⟩ => rfl

theorem rows_start0 (j : (⟨2, ![E, C]⟩ : Shape).Idx) (idx : IVec ⟨2, ![E, 1]⟩ w) :
    (rowDims N E C wf).start j idx 0 = (idx (ix2 (j 0) ⟨0, Nat.one_pos⟩)).toInt := by
  unfold ScatterDims.start
  rw [dif_pos (show (0 : Fin 2) ∈ (rowDims N E C wf).scatterDimsToOperandDims from List.mem_singleton.mpr rfl)]
  rw [rows_siIdx]
  rfl

theorem rows_start1 (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    fun h => absurd (List.mem_singleton.mp h) (show ¬((1 : Fin 2) = 0) by decide))]

theorem rows_window0 (j : (⟨2, ![E, C]⟩ : Shape).Idx) : (rowDims N E C wf).window j 0 = 0 := rfl
theorem rows_window1 (j : (⟨2, ![E, C]⟩ : Shape).Idx) : (rowDims N E C wf).window j 1 = (j 1).val := rfl

/-- Where an update element lands: row `e`, column `b` lands on `(n, c)` exactly when row `e`'s index is `n` and `b = c`. -/
theorem rows_resultIdx?_eq_some_iff (j : (⟨2, ![E, C]⟩ : Shape).Idx) (idx : IVec ⟨2, ![E, 1]⟩ w)
    (i : (⟨2, ![N, C]⟩ : Shape).Idx) :
    (rowDims N E C wf).resultIdx? j idx = some i ↔
      (idx (ix2 (j 0) ⟨0, Nat.one_pos⟩)).toInt = ((i 0).val : Int) ∧ (j 1).val = (i 1).val := by
  have hs0 : (rowDims N E C wf).start j idx 0 + ((rowDims N E C wf).window j 0 : Int)
      = (idx (ix2 (j 0) ⟨0, Nat.one_pos⟩)).toInt := by
    rw [rows_start0, rows_window0]; simp
  have hs1 : (rowDims N E C wf).start j idx 1 + ((rowDims N E C wf).window j 1 : Int) = ((j 1).val : Int) := by
    rw [rows_start1, rows_window1]; simp
  have hi0 : (i 0).val < N := (i 0).isLt
  have hi1 : (i 1).val < C := (i 1).isLt
  unfold ScatterDims.resultIdx?
  split
  · rename_i h
    rw [Option.some.injEq]
    constructor
    · intro hf
      have h0 : ((rowDims N E C wf).start j idx 0 + ((rowDims N E C wf).window j 0 : Int)).toNat = (i 0).val :=
        congrArg (fun f : (⟨2, ![N, C]⟩ : Shape).Idx => (f 0).val) hf
      have h1 : ((rowDims N E C wf).start j idx 1 + ((rowDims N E C wf).window j 1 : Int)).toNat = (i 1).val :=
        congrArg (fun f : (⟨2, ![N, C]⟩ : Shape).Idx => (f 1).val) hf
      have g0 := (h 0).1
      rw [hs0] at h0 g0
      rw [hs1] at h1
      constructor
      · omega
      · omega
    · rintro ⟨h0, h1⟩
      funext a
      refine Fin.ext ?_
      match a with
      | ⟨0, _⟩ =>
        show ((rowDims N E C wf).start j idx 0 + ((rowDims N E C wf).window j 0 : Int)).toNat = (i 0).val
        rw [hs0, h0]; exact Int.toNat_natCast _
      | ⟨1, _⟩ =>
        show ((rowDims N E C wf).start j idx 1 + ((rowDims N E C wf).window j 1 : Int)).toNat = (i 1).val
        rw [hs1, h1]; exact Int.toNat_natCast _
  · rename_i h
    constructor
    · intro hf; exact absurd hf (by simp)
    · rintro ⟨h0, h1⟩
      exfalso; apply h
      intro a
      match a with
      | ⟨0, _⟩ =>
        show 0 ≤ (rowDims N E C wf).start j idx 0 + ((rowDims N E C wf).window j 0 : Int) ∧
          (rowDims N E C wf).start j idx 0 + ((rowDims N E C wf).window j 0 : Int) < (N : Int)
        rw [hs0, h0]; omega
      | ⟨1, _⟩ =>
        show 0 ≤ (rowDims N E C wf).start j idx 1 + ((rowDims N E C wf).window j 1 : Int) ∧
          (rowDims N E C wf).start j idx 1 + ((rowDims N E C wf).window j 1 : Int) < (C : Int)
        rw [hs1, h1]; omega

/-- A row scatter with an `add` body, read at `(n, c)` on the extended reals: the operand there plus the sum over the
    update rows whose index is `n` of their column `c`. -/
theorem rows_scatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e ⟨0, Nat.one_pos⟩)).toInt = (n.val : Int) then upd (ix2 e c) else 0 := by
  unfold Ideal.hostScatterAdd
  congr 1
  rw [Finset.sum_filter, sum_idx2]
  refine Finset.sum_congr rfl fun e _ => ?_
  simp only [rows_resultIdx?_eq_some_iff]
  by_cases hA : (idx (ix2 e ⟨0, Nat.one_pos⟩)).toInt = (n.val : Int)
  · have : ∀ b : Fin C, ((idx (ix2 ((ix2 e b : (⟨2, ![E, C]⟩ : Shape).Idx) 0) ⟨0, Nat.one_pos⟩)).toInt = (((ix2 n c : (⟨2, ![N, C]⟩ : Shape).Idx) 0).val : Int)
        ∧ ((ix2 e b : (⟨2, ![E, C]⟩ : Shape).Idx) 1).val = ((ix2 n c : (⟨2, ![N, C]⟩ : Shape).Idx) 1).val) ↔ b = c :=
      fun b => ⟨fun h => Fin.ext h.2, fun h => ⟨hA, by subst h; rfl⟩⟩
    simp only [this, if_pos hA]
    rw [Finset.sum_ite_eq' Finset.univ c fun b => upd (ix2 e b)]
    simp
  · have : ∀ b : Fin C, ¬ ((idx (ix2 ((ix2 e b : (⟨2, ![E, C]⟩ : Shape).Idx) 0) ⟨0, Nat.one_pos⟩)).toInt = (((ix2 n c : (⟨2, ![N, C]⟩ : Shape).Idx) 0).val : Int)
        ∧ ((ix2 e b : (⟨2, ![E, C]⟩ : Shape).Idx) 1).val = ((ix2 n c : (⟨2, ![N, C]⟩ : Shape).Idx) 1).val) :=
      fun b h => hA h.1
    simp only [this, if_neg hA, if_false, Finset.sum_const_zero]

end Rows

/-- The dimension numbers of a scatter of one number per row into a vector: operand `[N]`, one index per update (`[E, 1]`),
    updates `[E]`. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A segment sum of rows into a constant array, the row numbers read off a vector `I` through a column `J` that holds them. -/
theorem rows_segment {N E C w : Nat} (wf : ScatterDims.WF ⟨2, ![N, C]⟩ ⟨2, ![E, 1]⟩ ⟨2, ![E, C]⟩ [1] [0] [0] 1) (z : EReal)
    (x : (⟨2, ![N, C]⟩ : Shape).Idx → EReal) (hx : ∀ i, x i = z) (I : (⟨1, ![E]⟩ : Shape).Idx → BitVec w)
    (J : IVec ⟨2, ![E, 1]⟩ w) (hJ : ∀ (e : Fin E) (u : Fin 1), J (ix2 e u) = I (ix1 e))
    (upd : (⟨2, ![E, C]⟩ : Shape).Idx → EReal) (n : Fin N) (c : Fin C) :
    Ideal.hostScatterAdd (rowDims N E C wf) x J upd (ix2 n c)
      = z + ∑ e : Fin E, if (I (ix1 e)).toInt = (n.val : Int) then upd (ix2 e c) else 0 := by
  rw [rows_scatterAdd_apply, hx]
  refine congrArg (z + ·) (Finset.sum_congr rfl fun e _ => ?_)
  rw [hJ]

section Vec
variable {N E w : Nat} (wf : ScatterDims.WF ⟨1, ![N]⟩ ⟨2, ![E, 1]⟩ ⟨1, ![E]⟩ [] [0] [0] 1)

theorem vec_siIdx (j : (⟨1, ![E]⟩ : Shape).Idx) :
    (vecDims N E wf).siIdx j ⟨List.idxOf (0 : Fin 1) (vecDims N E wf).scatterDimsToOperandDims,
      List.idxOf_lt_length_iff.2 (List.mem_singleton.mpr rfl)⟩ = ix2 (j 0) ⟨0, Nat.one_pos⟩ := by
  funext b; refine Fin.ext ?_
  match b with
  | ⟨0, _⟩ => rfl
  | ⟨1, _⟩ => rfl

theorem vec_start0 (j : (⟨1, ![E]⟩ : Shape).Idx) (idx : IVec ⟨2, ![E, 1]⟩ w) :
    (vecDims N E wf).start j idx 0 = (idx (ix2 (j 0) ⟨0, Nat.one_pos⟩)).toInt := by
  unfold ScatterDims.start
  rw [dif_pos (show (0 : Fin 1) ∈ (vecDims N E wf).scatterDimsToOperandDims from List.mem_singleton.mpr rfl)]
  rw [vec_siIdx]
  rfl

theorem vec_window0 (j : (⟨1, ![E]⟩ : Shape).Idx) : (vecDims N E wf).window j 0 = 0 := rfl

/-- Update `e` lands on `n` exactly when its index is `n`. -/
theorem vec_resultIdx?_eq_some_iff (j : (⟨1, ![E]⟩ : Shape).Idx) (idx : IVec ⟨2, ![E, 1]⟩ w)
    (i : (⟨1, ![N]⟩ : Shape).Idx) :
    (vecDims N E wf).resultIdx? j idx = some i ↔ (idx (ix2 (j 0) ⟨0, Nat.one_pos⟩)).toInt = ((i 0).val : Int) := by
  have hs0 : (vecDims N E wf).start j idx 0 + ((vecDims N E wf).window j 0 : Int)
      = (idx (ix2 (j 0) ⟨0, Nat.one_pos⟩)).toInt := by
    rw [vec_start0, vec_window0]; simp
  have hi0 : (i 0).val < N := (i 0).isLt
  unfold ScatterDims.resultIdx?
  split
  · rename_i h
    rw [Option.some.injEq]
    constructor
    · intro hf
      have h0 : ((vecDims N E wf).start j idx 0 + ((vecDims N E wf).window j 0 : Int)).toNat = (i 0).val :=
        congrArg (fun f : (⟨1, ![N]⟩ : Shape).Idx => (f 0).val) hf
      have g0 := (h 0).1
      rw [hs0] at h0 g0
      omega
    · intro h0
      funext a
      refine Fin.ext ?_
      match a with
      | ⟨0, _⟩ =>
        show ((vecDims N E wf).start j idx 0 + ((vecDims N E wf).window j 0 : Int)).toNat = (i 0).val
        rw [hs0, h0]; exact Int.toNat_natCast _
  · rename_i h
    constructor
    · intro hf; exact absurd hf (by simp)
    · intro h0
      exfalso; apply h
      intro a
      match a with
      | ⟨0, _⟩ =>
        show 0 ≤ (vecDims N E wf).start j idx 0 + ((vecDims N E wf).window j 0 : Int) ∧
          (vecDims N E wf).start j idx 0 + ((vecDims N E wf).window j 0 : Int) < (N : Int)
        rw [hs0, h0]; omega

/-- A rank-one index type is its one coordinate's. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Fintype.sum_equiv idxEquiv1.symm (fun a => f (ix1 a)) f (fun _ => rfl)).symm

/-- A scatter of one number per row with an `add` body, read at `n` on the extended reals: the operand there plus the
    sum of the updates whose index is `n`. -/
theorem vec_scatterAdd_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e ⟨0, Nat.one_pos⟩)).toInt = (n.val : Int) then upd (ix1 e) else 0 := by
  unfold Ideal.hostScatterAdd
  congr 1
  rw [Finset.sum_filter, sum_idx1]
  refine Finset.sum_congr rfl fun e _ => ?_
  simp only [vec_resultIdx?_eq_some_iff]
  rfl

/-- A segment sum of numbers into a constant vector, the row numbers read off `I` through the column `J`. -/
theorem vec_segment (z : EReal) (x : (⟨1, ![N]⟩ : Shape).Idx → EReal) (hx : ∀ i, x i = z) (I : (⟨1, ![E]⟩ : Shape).Idx → BitVec w)
    (J : IVec ⟨2, ![E, 1]⟩ w) (hJ : ∀ (e : Fin E) (u : Fin 1), J (ix2 e u) = I (ix1 e))
    (upd : (⟨1, ![E]⟩ : Shape).Idx → EReal) (n : Fin N) :
    Ideal.hostScatterAdd (vecDims N E wf) x J upd (ix1 n)
      = z + ∑ e : Fin E, if (I (ix1 e)).toInt = (n.val : Int) then upd (ix1 e) else 0 := by
  rw [vec_scatterAdd_apply, hx]
  refine congrArg (z + ·) (Finset.sum_congr rfl fun e _ => ?_)
  rw [hJ]

end Vec

end Cert.Lib.SegmentSum

end
-- ==== Proof.Tail.lean ====
/-
  The scatter-mean after the edge kernel.  The kernel adds the clipped updates and a column of ones into one
  four-column array with a single segment sum, then divides the first three columns by the fourth (at least one);
  the reference runs two segment sums, of the updates and of a vector of ones.  A segment sum at node `n` is the
  sum over the edges whose destination is `n`; the four-column sum read at a column below three is the
  three-column one, and read at the fourth column it is the count.  So both programs hold, at `(n, d)`,
  `x + (Σ update) / max (Σ 1) 1 · 1`.
-/
import proofs.«123867_j936302870591_2_alg».proof.Proof.Gen.KernelIdeal
import proofs.«123867_j936302870591_2_alg».proof.Proof.Gen.ReferenceIdeal.Read
import proofs.«123867_j936302870591_2_alg».proof.Proof.LibRowOps
import proofs.«123867_j936302870591_2_alg».proof.Proof.LibSegmentSum
import proofs.«123867_j936302870591_2_alg».proof.Proof.EdgeSpec

set_option maxRecDepth 16384

noncomputable section

namespace Cert.Tail

open Idealize.ShloMosaic Idealize.ShloMosaic.ValueIdx Cert.Lib.RowOps Cert.Lib.SegmentSum

/-- The new coordinate of a node: the old one plus the mean update, from the sum `s` of the updates and the count `k`. -/
def tailRow (x s k : EReal) : EReal := x + Ideal.div (0 + s) (max (0 + k) 1) * 1

theorem hdivf {s : Shape} {φ : FTy} (x y : FVec Ideal s φ) (i : s.Idx) : Host.divf x y i = Ideal.div (x i) (y i) := rfl
theorem hscat {s si su : Shape} {w : Nat} {φ : FTy} (d : ScatterDims s si su) (x : FVec Ideal s φ) (idx : IVec si w) (u : FVec Ideal su φ) :
    Host.scatterAdd d x idx u = Ideal.hostScatterAdd d x idx u := rfl
theorem c0 : constant (F := Ideal) ⟨0, ![]⟩ .f32 0x00000000#32 ix0 = 0 := Ideal.ofBits_zero_f32
theorem c1 : constant (F := Ideal) ⟨0, ![]⟩ .f32 0x3F800000#32 ix0 = 1 := Cert.EdgeSpec.ofBits_one

section Ref
open Cert.ReferenceIdeal Cert.ReferenceIdeal.Gen

/-- The reference's tail as a function of the coordinates, the destinations and the clipped updates. -/
def refTail (X : FVec Ideal S100000x3 .f32) (I : IVec S3200000 32) (U3 : FVec Ideal S3200000x3 .f32) : FVec Ideal S100000x3 .f32 :=
  addf X (mulf (Host.divf (Host.scatterAdd scatter_S100000x3_S3200000x1_S3200000x3_1_0_0_1 (broadcastInDim S100000x3 ![] bcast_S_S100000x3 (constant S_ .f32 0x00000000#32)) (broadcastInDim S3200000x1 ![0] bcast_S3200000_S3200000x1_0 I) U3) (broadcastInDim S100000x3 ![0, 1] bcast_S100000x1_S100000x3_0_1 (broadcastInDim S100000x1 ![0] bcast_S100000_S100000x1_0 (maximumf (Host.scatterAdd scatter_S100000_S3200000x1_S3200000_n_0_0_1 (broadcastInDim S100000 ![] bcast_S_S100000 (constant S_ .f32 0x00000000#32)) (broadcastInDim S3200000x1 ![0] bcast_S3200000_S3200000x1_0 I) (broadcastInDim S3200000 ![] bcast_S_S3200000 (constant S_ .f32 0x3F800000#32))) (broadcastInDim S100000 ![] bcast_S_S100000 (constant S_ .f32 0x3F800000#32)))))) (broadcastInDim S100000x3 ![] bcast_S_S100000x3 (constant S_ .f32 0x3F800000#32)))

theorem rd3 : scatter_S100000x3_S3200000x1_S3200000x3_1_0_0_1 = rowDims 100000 3200000 3 scatter_S100000x3_S3200000x1_S3200000x3_1_0_0_1.wf := rfl
theorem rd1 : scatter_S100000_S3200000x1_S3200000_n_0_0_1 = vecDims 100000 3200000 scatter_S100000_S3200000x1_S3200000_n_0_0_1.wf := rfl

theorem refTail_apply (X : FVec Ideal S100000x3 .f32) (I : IVec S3200000 32) (U3 : FVec Ideal S3200000x3 .f32) (n : Fin 100000) (d : Fin 3) :
    refTail X I U3 (ix2 n d)
      = tailRow (X (ix2 n d)) (∑ e : Fin 3200000, if (I (ix1 e)).toInt = (n.val : Int) then U3 (ix2 e d) else 0)
          (∑ e : Fin 3200000, if (I (ix1 e)).toInt = (n.val : Int) then (1 : EReal) else 0) := by
  have hJ : ∀ (e : Fin 3200000) (u : Fin 1), broadcastInDim S3200000x1 ![0] bcast_S3200000_S3200000x1_0 I (ix2 e u) = I (ix1 e) :=
    fun e u => bcastInDim_a_a1 I _ e u
  have hnum : Host.scatterAdd scatter_S100000x3_S3200000x1_S3200000x3_1_0_0_1 (broadcastInDim S100000x3 ![] bcast_S_S100000x3 (constant S_ .f32 0x00000000#32))
      (broadcastInDim S3200000x1 ![0] bcast_S3200000_S3200000x1_0 I) U3 (ix2 n d)
      = 0 + ∑ e : Fin 3200000, if (I (ix1 e)).toInt = (n.val : Int) then U3 (ix2 e d) else 0 := by
    rw [hscat, rd3]
    exact rows_segment _ 0 _ (fun i => (bcastInDim_scalar _ _ i).trans c0) I _ hJ U3 n d
  have hcnt : Host.scatterAdd scatter_S100000_S3200000x1_S3200000_n_0_0_1 (broadcastInDim S100000 ![] bcast_S_S100000 (constant (F := Ideal) S_ .f32 0x00000000#32))
      (broadcastInDim S3200000x1 ![0] bcast_S3200000_S3200000x1_0 I) (broadcastInDim S3200000 ![] bcast_S_S3200000 (constant (F := Ideal) S_ .f32 0x3F800000#32)) (ix1 n)
      = 0 + ∑ e : Fin 3200000, if (I (ix1 e)).toInt = (n.val : Int) then (1 : EReal) else 0 := by
    rw [hscat, rd1]
    refine (vec_segment _ 0 _ (fun i => (bcastInDim_scalar _ _ i).trans c0) I _ hJ _ n).trans ?_
    refine congrArg (0 + ·) (Finset.sum_congr rfl fun e _ => ?_)
    rw [bcastInDim_scalar, c1]
  unfold refTail tailRow
  rw [addf_apply, mulf_apply, hdivf, hnum, bcastInDim_a1_ab, bcastInDim_a_a1, maximumf_apply, hcnt, bcastInDim_scalar, c1, bcastInDim_scalar, c1]

end Ref

section Ker
open Cert.KernelIdeal Cert.KernelIdeal.Gen

/-- The kernel's tail as a function of the coordinates, the destinations and the four-column array the region leaves. -/
def kerTail (X : FVec Ideal S100000x3 .f32) (I : IVec S3200000 32) (U4 : FVec Ideal S3200000x4 .f32) : FVec Ideal S100000x3 .f32 :=
  addf X (mulf (Host.divf (extractStridedSlice S100000x3 ![0, 0] (Host.scatterAdd scatter_S100000x4_S3200000x1_S3200000x4_1_0_0_1 (broadcastInDim S100000x4 ![] bcast_S_S100000x4 (constant S_ .f32 0x00000000#32)) (broadcastInDim S3200000x1 ![0] bcast_S3200000_S3200000x1_0 I) U4) slices_S100000x4_S100000x3_0_0) (broadcastInDim S100000x3 ![0, 1] bcast_S100000x1_S100000x3_0_1 (broadcastInDim S100000x1 ![0] bcast_S100000_S100000x1_0 (maximumf (shapeCast S100000 (extractStridedSlice S100000x1 ![0, 3] (Host.scatterAdd scatter_S100000x4_S3200000x1_S3200000x4_1_0_0_1 (broadcastInDim S100000x4 ![] bcast_S_S100000x4 (constant S_ .f32 0x00000000#32)) (broadcastInDim S3200000x1 ![0] bcast_S3200000_S3200000x1_0 I) U4) slices_S100000x4_S100000x1_0_3) shapeCasts_S100000x1_S100000) (broadcastInDim S100000 ![] bcast_S_S100000 (constant S_ .f32 0x3F800000#32)))))) (broadcastInDim S100000x3 ![] bcast_S_S100000x3 (constant S_ .f32 0x3F800000#32)))

theorem kd4 : scatter_S100000x4_S3200000x1_S3200000x4_1_0_0_1 = rowDims 100000 3200000 4 scatter_S100000x4_S3200000x1_S3200000x4_1_0_0_1.wf := rfl

theorem kerTail_apply (X : FVec Ideal S100000x3 .f32) (I : IVec S3200000 32) (U4 : FVec Ideal S3200000x4 .f32) (n : Fin 100000) (d : Fin 3) :
    kerTail X I U4 (ix2 n d)
      = tailRow (X (ix2 n d)) (∑ e : Fin 3200000, if (I (ix1 e)).toInt = (n.val : Int) then U4 (ix2 e (⟨d.val, by omega⟩ : Fin 4)) else 0)
          (∑ e : Fin 3200000, if (I (ix1 e)).toInt = (n.val : Int) then U4 (ix2 e (3 : Fin 4)) else 0) := by
  have hJ : ∀ (e : Fin 3200000) (u : Fin 1), broadcastInDim S3200000x1 ![0] bcast_S3200000_S3200000x1_0 I (ix2 e u) = I (ix1 e) :=
    fun e u => bcastInDim_a_a1 I _ e u
  have hsc : ∀ j : Fin 4, Host.scatterAdd scatter_S100000x4_S3200000x1_S3200000x4_1_0_0_1 (broadcastInDim S100000x4 ![] bcast_S_S100000x4 (constant S_ .f32 0x00000000#32))
      (broadcastInDim S3200000x1 ![0] bcast_S3200000_S3200000x1_0 I) U4 (ix2 n j)
      = 0 + ∑ e : Fin 3200000, if (I (ix1 e)).toInt = (n.val : Int) then U4 (ix2 e j) else 0 := by
    intro j
    rw [hscat, kd4]
    exact rows_segment _ 0 _ (fun i => (bcastInDim_scalar _ _ i).trans c0) I _ hJ U4 n j
  unfold kerTail tailRow
  rw [addf_apply, mulf_apply, hdivf,
    extractStridedSlice_apply ![0, 0] _ slices_S100000x4_S100000x3_0_0 (ix2 n d) (ix2 n (⟨d.val, by omega⟩ : Fin 4)) (fun a => by
      match a with
      | ⟨0, _⟩ => show n.val = 0 + n.val; omega
      | ⟨1, _⟩ => show d.val = 0 + d.val; omega),
    hsc, bcastInDim_a1_ab, bcastInDim_a_a1, maximumf_apply,
    shapeCast_apply _ shapeCasts_S100000x1_S100000 (ix1 n) (ix2 n (0 : Fin 1)) (by
      rw [Shape.rowMajor_val_two, Shape.rowMajor_val_one]; show n.val * 1 + 0 = n.val; omega),
    extractStridedSlice_apply ![0, 3] _ slices_S100000x4_S100000x1_0_3 (ix2 n (0 : Fin 1)) (ix2 n (3 : Fin 4)) (fun a => by
      match a with
      | ⟨0, _⟩ => show n.val = 0 + n.val; omega
      | ⟨1, _⟩ => rfl),
    hsc, bcastInDim_scalar, c1, bcastInDim_scalar, c1]

end Ker

/-- When the four-column array's first three columns are the updates and its fourth is ones, the two tails agree. -/
theorem tails_agree (X : FVec Ideal ⟨2, ![100000, 3]⟩ .f32) (I : IVec ⟨1, ![3200000]⟩ 32)
    (U4 : FVec Ideal ⟨2, ![3200000, 4]⟩ .f32) (U3 : FVec Ideal ⟨2, ![3200000, 3]⟩ .f32)
    (hU : ∀ (e : Fin 3200000) (d : Fin 3), U4 (ix2 e (⟨d.val, by omega⟩ : Fin 4)) = U3 (ix2 e d))
    (hO : ∀ e : Fin 3200000, U4 (ix2 e (3 : Fin 4)) = 1) :
    kerTail X I U4 = refTail X I U3 := by
  funext i
  obtain ⟨n, d, rfl⟩ : ∃ (n : Fin 100000) (d : Fin 3), i = ix2 n d := ⟨i 0, i 1, eq_ix2 i⟩
  rw [kerTail_apply, refTail_apply]
  simp only [hU, hO]

end Cert.Tail

end
-- ==== Proof.PreFacts.lean ====
/-
  What the precondition says of the inputs, element by element: every float input is a real number, and the
  batch-normalisation variance is not negative.  The precondition is a conjunction of one `all` per input; a
  conjunct `|x| < +∞` at an element of the extended reals says the element is a real number, and a conjunct
  `v ≥ 0` is the order relation.
-/
import proofs.«123867_j936302870591_2_alg».proof.Pre_finite_inputs
import proofs.«123867_j936302870591_2_alg».proof.Proof.Gen.Pre_finite_inputs
import Idealize.ShloMosaic.Lib.ReduceAll
import Idealize.ShloMosaic.Lib.Affine
import Idealize.ShloMosaic.PureOps.Ideal.Laws
import Idealize.ShloMosaic.Lib.ValueIdx

noncomputable section

namespace Cert.PreFacts

open Idealize.ShloMosaic Idealize.ShloMosaic.ValueIdx Cert.Pre_finite_inputs

instance : Subsingleton S_.Idx := ⟨fun a b => funext fun d => d.elim0⟩

/-- The single-precision pattern of `+∞` denotes the top of the extended reals. -/
theorem ofBits_inf : Ideal.ofBits .f32 0x7F800000#32 = ⊤ := by
  simp [Ideal.ofBits, Ideal.ieee]

theorem ofBool_eq_one_iff : ∀ b : Bool, BitVec.ofBool b = 1#1 ↔ b = true := by decide

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  rw [ofBits_inf] at h
  have h' : max x (-x) < ⊤ := by
    unfold Ideal.cmp at h
    rw [ofBool_eq_one_iff] at h
    simpa using h
  induction x using EReal.rec with
  | bot => simp at h'
  | top => simp at h'
  | coe r => exact ⟨r, rfl⟩

/-- An extended real that is a real number and at least the zero pattern is a nonnegative real. -/
theorem nonneg_of_ge (x : EReal) (hx : ∃ r : ℝ, x = (r : EReal))
    (h : Ideal.cmp .oge x (Ideal.ofBits .f32 0x00000000#32) = 1#1) : ∃ r : ℝ, 0 ≤ r ∧ x = (r : EReal) := by
  obtain ⟨r, rfl⟩ := hx
  rw [Ideal.ofBits_zero_f32] at h
  have h' : (0 : EReal) ≤ (r : EReal) := by
    unfold Ideal.cmp at h
    rw [ofBool_eq_one_iff] at h
    simpa using h
  exact ⟨r, by exact_mod_cast h', rfl⟩

/-- What the precondition gives: the coordinates, the first layer's weights and the four batch-normalisation vectors are
    arrays of real numbers, and the variance is nonnegative. -/
theorem facts_of_fn (x0 : FVec Ideal S100000x3 .f32) (x1 : IVec S2x3200000 32) (x2 : FVec Ideal S2x32 .f32) (x3 x4 x5 x6 : FVec Ideal S32 .f32)
    (x7 : FVec Ideal S32x32 .f32) (x8 : FVec Ideal S32 .f32) (x9 : FVec Ideal S32x32 .f32) (x10 : FVec Ideal S32 .f32)
    (x11 x12 : FVec Ideal S32x1 .f32) (x13 : FVec Ideal S1 .f32)
    (h : fn (F := Ideal) x0 x1 x2 x3 x4 x5 x6 x7 x8 x9 x10 x11 x12 x13 = fun _ => 1#1) :
    (∀ i, ∃ q : ℝ, x0 i = (q : EReal)) ∧ (∀ i, ∃ q : ℝ, x2 i = (q : EReal)) ∧ (∀ i, ∃ q : ℝ, x3 i = (q : EReal))
      ∧ (∀ i, ∃ q : ℝ, x4 i = (q : EReal)) ∧ (∀ i, ∃ q : ℝ, x5 i = (q : EReal))
      ∧ (∀ i, ∃ q : ℝ, 0 ≤ q ∧ x6 i = (q : EReal)) := by
  have e := congrFun h ix0
  unfold fn fn_part1 fn_part2 fn_part3 at e
  simp only [andi] at e
  simp only [IntOp.andi_eq_one] at e
  obtain ⟨⟨⟨⟨⟨⟨⟨⟨⟨⟨⟨⟨⟨e0, e2⟩, e3⟩, e4⟩, e5⟩, e6⟩, -⟩, -⟩, -⟩, -⟩, -⟩, -⟩, -⟩, e14⟩ := e
  have r6 : ∀ i, ∃ q : ℝ, x6 i = (q : EReal) := fun i => real_of_abs_lt (x6 i) (Host.reduce_andi_all _ _ _ _ _ e6 i)
  exact ⟨fun i => real_of_abs_lt (x0 i) (Host.reduce_andi_all _ _ _ _ _ e0 i),
    fun i => real_of_abs_lt (x2 i) (Host.reduce_andi_all _ _ _ _ _ e2 i),
    fun i => real_of_abs_lt (x3 i) (Host.reduce_andi_all _ _ _ _ _ e3 i),
    fun i => real_of_abs_lt (x4 i) (Host.reduce_andi_all _ _ _ _ _ e4 i),
    fun i => real_of_abs_lt (x5 i) (Host.reduce_andi_all _ _ _ _ _ e5 i),
    fun i => nonneg_of_ge (x6 i) (r6 i) (Host.reduce_andi_all _ _ _ _ _ e14 i)⟩

end Cert.PreFacts

end
-- ==== Proof.KernelRun.lean ====
/-
  The kernel's run, read: every weakly fair execution ends with the message array at the reference's message
  array and, after the host operations that follow the region, the new coordinates at the reference's new
  coordinates — both as functions of the arguments as launched — and the arguments unchanged.
-/
import proofs.«123867_j936302870591_2_alg».proof.Proof.KernelBlocks
import proofs.«123867_j936302870591_2_alg».proof.Proof.Tail
import proofs.«123867_j936302870591_2_alg».proof.Proof.PreFacts
import proofs.«123867_j936302870591_2_alg».proof.Defs

set_option maxRecDepth 16384
set_option maxHeartbeats 4000000

noncomputable section

namespace Cert.KernelRun

open Idealize.ShloMosaic Idealize.ShloMosaic.TcCoe Idealize.ShloMosaic.ValueIdx Idealize.SL.Sem Idealize.ShloMosaic.StableHlo
open Cert.KernelIdeal Cert.KernelIdeal.Gen Cert.KernelArrays Cert.KernelBlocks
open Idealize.ShloMosaic.Pipeline (Dat)

variable (m : (ℓ : Loc nD τ sig) → Buf (Elt Ideal) ℓ) (ρ : Dev nD → PrngReg) (c : Dev nD)

/-- The reference's new coordinates, of the kernel's arguments. -/
def G45 : Buf (Elt Ideal) ((c.tc : Thread nD τ).loc main_v45) := Cert.ReferenceIdeal.Read.val_main_v89 (F := Ideal) (a0 m c) (a1 m c) (a2 m c) (a3 m c) (a4 m c) (a5 m c) (a6 m c) (a7 m c) (a8 m c) (a9 m c) (a10 m c) (a11 m c) (a12 m c) (a13 m c)

/-- The four-column array is the clipped update in its first three columns. -/
theorem G12_lt (e : Fin 3200000) (d : Fin 3) :
    G12 m c (ix2 e (⟨d.val, by omega⟩ : Fin 4)) = Cert.ReferenceIdeal.Read.val_main_v74 (F := Ideal) (a0 m c) (a1 m c) (a2 m c) (a3 m c) (a4 m c) (a5 m c) (a6 m c) (a7 m c) (a8 m c) (a9 m c) (a10 m c) (a11 m c) (a12 m c) (a13 m c) (ix2 e d) := by
  unfold G12
  rw [dif_pos (show ((ix2 e (⟨d.val, by omega⟩ : Fin 4) : S3200000x4.Idx) 1).val < 3 from d.isLt)]

/-- … and ones in its fourth. -/
theorem G12_3 (e : Fin 3200000) : G12 m c (ix2 e (3 : Fin 4)) = (1 : EReal) := by
  unfold G12
  rw [dif_neg (show ¬ ((ix2 e (3 : Fin 4) : S3200000x4.Idx) 1).val < 3 from (by decide : ¬ (3 : Nat) < 3))]
  exact Cert.EdgeSpec.ofBits_one

section
variable (hx : ∀ i, ∃ q : ℝ, a0 m c i = (q : EReal)) (hW : ∀ i, ∃ q : ℝ, a2 m c i = (q : EReal))
  (hγ : ∀ i, ∃ q : ℝ, a3 m c i = (q : EReal)) (hβ : ∀ i, ∃ q : ℝ, a4 m c i = (q : EReal))
  (hμ : ∀ i, ∃ q : ℝ, a5 m c i = (q : EReal)) (hv : ∀ i, ∃ q : ℝ, 0 ≤ q ∧ a6 m c i = (q : EReal))
include hx hW hγ hβ hμ hv

/-- After the host operations that follow the region, the new coordinates are the reference's. -/
theorem tail_eq : Pipeline.afterTail₀ cfgs (dats m) 0 (V0 m) [hostOps1] c main_v45 = G45 m c := by
  have e1 : Pipeline.afterTail₀ cfgs (dats m) 0 (V0 m) [hostOps1] c main_v45
      = Cert.Tail.kerTail (Pipeline.withArrays spec0 c (V0 m c) (fun w => (dats m 0 c).arrAt w cfg0.N) (Proc.devRef .tc main_arg0)) (Pipeline.withArrays spec0 c (V0 m c) (fun w => (dats m 0 c).arrAt w cfg0.N) (Proc.devRef .tc main_v1)) (Pipeline.withArrays spec0 c (V0 m c) (fun w => (dats m 0 c).arrAt w cfg0.N) (Proc.devRef .tc main_v31_1)) := by
    unfold Pipeline.afterTail₀
    show StableHlo.after hostOps1 _ (Proc.devRef .tc main_v45) = _
    after_results
    rfl
  have w0 : (Pipeline.withArrays spec0 c (V0 m c) (fun w => (dats m 0 c).arrAt w cfg0.N) (Proc.devRef .tc main_arg0)) = a0 m c :=
    (Pipeline.withArrays_of_ne spec0 c (V0 m c) _ main_arg0 (by exact (by decide : ∀ w, Pipeline.arrRef spec0 w ≠ main_arg0))).trans (V_main_arg0 m c)
  have w1 : (Pipeline.withArrays spec0 c (V0 m c) (fun w => (dats m 0 c).arrAt w cfg0.N) (Proc.devRef .tc main_v1)) = Cert.ReferenceIdeal.Read.val_main_v1 (F := Ideal) (a1 m c) :=
    (Pipeline.withArrays_of_ne spec0 c (V0 m c) _ main_v1 (by exact (by decide : ∀ w, Pipeline.arrRef spec0 w ≠ main_v1))).trans (V_v1 m c)
  have w12 : (Pipeline.withArrays spec0 c (V0 m c) (fun w => (dats m 0 c).arrAt w cfg0.N) (Proc.devRef .tc main_v31_1)) = G12 m c :=
    (Pipeline.withArrays_arr spec0 launch0.win.arr_inj c _ _ 12).trans (final12 m c hx hW hγ hβ hμ hv)
  have e2 : G45 m c = Cert.Tail.refTail (a0 m c) (Cert.ReferenceIdeal.Read.val_main_v1 (F := Ideal) (a1 m c)) (Cert.ReferenceIdeal.Read.val_main_v74 (F := Ideal) (a0 m c) (a1 m c) (a2 m c) (a3 m c) (a4 m c) (a5 m c) (a6 m c) (a7 m c) (a8 m c) (a9 m c) (a10 m c) (a11 m c) (a12 m c) (a13 m c)) := rfl
  rewrite [e1, w0, w1, w12, e2]
  exact Cert.Tail.tails_agree _ _ _ _ (G12_lt m c) (G12_3 m c)

end

/-- The kernel's run: the new coordinates and the messages end at the reference's arrays, the arguments as launched. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v45) = G45 m c
      ∧ r.2.mem ((c.tc : Thread nD τ).loc main_v31_0) = G11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  have hf := fun c : Dev nD => Cert.PreFacts.facts_of_fn _ _ _ _ _ _ _ _ _ _ _ _ _ _ (hpre c)
  exact (θ_run defs _ _).mono (fun r h c =>
    ⟨((h c).2 main_v45 (Pipeline.mem_restRefs_of main_v45 (by decide) (by decide))).trans
        (tail_eq m c (hf c).1 (hf c).2.1 (hf c).2.2.1 (hf c).2.2.2.1 (hf c).2.2.2.2.1 (hf c).2.2.2.2.2),
      ((h c).1 11).trans (final11 m c (hf c).1 (hf c).2.1 (hf c).2.2.1 (hf c).2.2.2.1 (hf c).2.2.2.2.1 (hf c).2.2.2.2.2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 4).trans (((dats m 0 c).arrAt_in 4 rfl _).trans ((A_eq m c 4).trans (V_main_arg7 m c))),
      ((h c).2 main_arg8 (Pipeline.mem_restRefs_of main_arg8 (by decide) (by decide))).trans (W_main_arg8 m (dats m) c),
      ((h c).1 6).trans (((dats m 0 c).arrAt_in 6 rfl _).trans ((A_eq m c 6).trans (V_main_arg9 m c))),
      ((h c).2 main_arg10 (Pipeline.mem_restRefs_of main_arg10 (by decide) (by decide))).trans (W_main_arg10 m (dats m) c),
      ((h c).1 8).trans (((dats m 0 c).arrAt_in 8 rfl _).trans ((A_eq m c 8).trans (V_main_arg11 m c))),
      ((h c).1 9).trans (((dats m 0 c).arrAt_in 9 rfl _).trans ((A_eq m c 9).trans (V_main_arg12 m c))),
      ((h c).2 main_arg13 (Pipeline.mem_restRefs_of main_arg13 (by decide) (by decide))).trans (W_main_arg13 m (dats m) c)⟩)
    (run_main m ρ)

end Cert.KernelRun

end
-- ==== Proof.lean ====
/-
  The edge kernel of an equivariant graph layer against its jnp reference, on the extended reals.

  For every edge `e = (i, j)` both programs gather the end points `x_i`, `x_j`, form the two squashed features
  `ψ(|x_i − x_j|²)` and `ψ(x_i · x_j)` with `ψ(t) = sign t · log(1 + |t|)`, run a small multilayer perceptron on them to a
  gated message `m_e`, and from `m_e` a scalar that scales `x_i − x_j` into a clipped update; then every node's
  coordinates move by the mean update of its incoming edges.  The kernel computes the per-edge part block by
  block of 4000 edges in one region; the reference computes it over whole arrays.  They differ in three ways:
  the kernel folds the evaluation-mode batch normalisation of the first layer into that layer's weights and bias
  (equal on real inputs with a nonnegative variance: the one use of the precondition); it spells `sign` through the
  sign bit (one function at every extended real) and the sigmoid as one operation (the same expression); and it sums
  the updates and a column of ones in one segment sum where the reference runs two (the same sums).  The modules:
  the specification of one edge's row and the folding law (EdgeSpec); the kernel body and the reference stage by
  stage at one row (StageH1, StageMsg, StagePhix, StageUpd, over RefStages); what the launch stages
  (KernelArrays); blocks to arrays (KernelBlocks); the scatter-mean (Tail, over LibSegmentSum); the kernel's run
  (KernelRun); what the precondition says element by element (PreFacts).
-/
import proofs.«123867_j936302870591_2_alg».proof.Defs
import proofs.«123867_j936302870591_2_alg».proof.Proof.Gen.Kernel
import proofs.«123867_j936302870591_2_alg».proof.Proof.Gen.Kernel.Skeleton
import proofs.«123867_j936302870591_2_alg».proof.Proof.Gen.Kernel.Launch
import proofs.«123867_j936302870591_2_alg».proof.Proof.Gen.Kernel.Points
import proofs.«123867_j936302870591_2_alg».proof.Proof.Gen.Kernel.Frame
import proofs.«123867_j936302870591_2_alg».proof.Proof.Gen.KernelIdeal
import proofs.«123867_j936302870591_2_alg».proof.Proof.Gen.KernelIdeal.Skeleton
import proofs.«123867_j936302870591_2_alg».proof.Proof.Gen.KernelIdeal.Launch
import proofs.«123867_j936302870591_2_alg».proof.Proof.Gen.KernelIdeal.Points
import proofs.«123867_j936302870591_2_alg».proof.Proof.Gen.KernelIdeal.Frame
import proofs.«123867_j936302870591_2_alg».proof.Proof.Gen.ReferenceIdeal
import proofs.«123867_j936302870591_2_alg».proof.Proof.Gen.ReferenceIdeal.Run
import proofs.«123867_j936302870591_2_alg».proof.Proof.Gen.ReferenceIdeal.Read
import proofs.«123867_j936302870591_2_alg».proof.Proof.Gen.Pre_finite_inputs
import proofs.«123867_j936302870591_2_alg».proof.Proof.KernelRun
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The two ledger entries: the sign bit of each feature's argument read as "negative". -/
theorem preserves : Cert.preserves_Kernel_KernelIdeal :=
  ⟨IdealRules.sign_bit.statement Cert.KernelIdeal.S4000x1 .f32, IdealRules.sign_bit.statement Cert.KernelIdeal.S4000x1 .f32⟩

/-- Both idealized programs end at the reference's arrays of the (agreeing) arguments. -/
theorem algebraic : Cert.algebraic_KernelIdeal_ReferenceIdeal := by
  intro m ρ m' ρ' hpre hagree
  refine ⟨fun c => Cert.KernelRun.G45 m c, fun c => Cert.KernelBlocks.G11 m c, Cert.KernelRun.run m ρ hpre, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rewrite [Cert.ReferenceIdeal.Read.val_main_v89_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    rfl
  · rewrite [Cert.ReferenceIdeal.Read.val_main_v65_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.2.2.2.1, (hagree c).2.2.2.2.2.2.2.2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
